-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x10 : Shape := ⟨2, ![262144, 10]⟩
abbrev S10x10 : Shape := ⟨2, ![10, 10]⟩
abbrev S_ : Shape := ⟨0, ![]⟩

class Facts : Prop where
  bcast_S_S262144x10 : S_.BroadcastsInDim S262144x10 (![] : Fin 0 → Fin S262144x10.rank)
  reducesTo_S262144x10_S_d0_1 : S262144x10.ReducesTo [0, 1] S_
  h_S_ : 0 < S_.numel
  bcast_S_S10x10 : S_.BroadcastsInDim S10x10 (![] : Fin 0 → Fin S10x10.rank)
  reducesTo_S10x10_S_d0_1 : S10x10.ReducesTo [0, 1] S_

variable [Facts]

def fn_part1 {F : FTy → Type} [FloatOps F] (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  main_v18

def fn {F : FTy → Type} [FloatOps F] (main_arg0 : FVec F S262144x10 .f32) (main_arg1 : FVec F S262144x10 .f32) (main_arg2 : FVec F S10x10 .f32) (main_arg3 : FVec F S10x10 .f32) : IVec S_ 1 :=
  let main_v0 : FVec F S262144x10 .f32 := Host.absf main_arg0
  let main_cst : FVec F S_ .f32 := constant S_ .f32 0x7F800000#32
  let main_v1 : FVec F S262144x10 .f32 := broadcastInDim S262144x10 ![] bcast_S_S262144x10 main_cst
  let main_v2 : IVec S262144x10 1 := cmpf .olt main_v0 main_v1
  let main_c : IVec S_ 1 := constantI S_ 1 1#1
  let main_v3 : IVec S_ 1 := (fun x v => Host.reduce IntOp.andi x v reducesTo_S262144x10_S_d0_1 h_S_) main_v2 main_c
  let main_v4 : FVec F S262144x10 .f32 := Host.absf main_arg1
  let main_cst_0 : FVec F S_ .f32 := constant S_ .f32 0x7F800000#32
  let main_v5 : FVec F S262144x10 .f32 := broadcastInDim S262144x10 ![] bcast_S_S262144x10 main_cst_0
  let main_v6 : IVec S262144x10 1 := cmpf .olt main_v4 main_v5
  let main_c_1 : IVec S_ 1 := constantI S_ 1 1#1
  let main_v7 : IVec S_ 1 := (fun x v => Host.reduce IntOp.andi x v reducesTo_S262144x10_S_d0_1 h_S_) main_v6 main_c_1
  let main_v8 : IVec S_ 1 := andi main_v3 main_v7
  let main_v9 : FVec F S10x10 .f32 := Host.absf main_arg2
  let main_cst_2 : FVec F S_ .f32 := constant S_ .f32 0x7F800000#32
  let main_v10 : FVec F S10x10 .f32 := broadcastInDim S10x10 ![] bcast_S_S10x10 main_cst_2
  let main_v11 : IVec S10x10 1 := cmpf .olt main_v9 main_v10
  let main_c_3 : IVec S_ 1 := constantI S_ 1 1#1
  let main_v12 : IVec S_ 1 := (fun x v => Host.reduce IntOp.andi x v reducesTo_S10x10_S_d0_1 h_S_) main_v11 main_c_3
  let main_v13 : IVec S_ 1 := andi main_v8 main_v12
  let main_v14 : FVec F S10x10 .f32 := Host.absf main_arg3
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_v13 main_v16
-- ==== Kernel.lean ====
abbrev S262144x10 : Shape := ⟨2, ![262144, 10]⟩
abbrev S10x10 : Shape := ⟨2, ![10, 10]⟩
abbrev S100x10 : Shape := ⟨2, ![100, 10]⟩
abbrev S19x100 : Shape := ⟨2, ![19, 100]⟩
abbrev S_ : Shape := ⟨0, ![]⟩
abbrev S10 : Shape := ⟨1, ![10]⟩
abbrev S10x1 : Shape := ⟨2, ![10, 1]⟩
abbrev S19x262144 : Shape := ⟨2, ![19, 262144]⟩
abbrev S8192x10 : Shape := ⟨2, ![8192, 10]⟩
abbrev S19x8192 : Shape := ⟨2, ![19, 8192]⟩
abbrev S10x8192 : Shape := ⟨2, ![10, 8192]⟩
abbrev S100x8192 : Shape := ⟨2, ![100, 8192]⟩
abbrev S8192 : Shape := ⟨1, ![8192]⟩
abbrev S1x8192 : Shape := ⟨2, ![1, 8192]⟩
abbrev S262144x19 : Shape := ⟨2, ![262144, 19]⟩

abbrev nBuf : Space → Nat
  | .hbm => 53
  | .vmem => 11
  | .smem => 0
  | _ => 0

abbrev bufTy : (tb : Table) → Fin (tcTables nBuf tb) → BufTy
  | .hbm, ⟨0, _⟩ => ⟨S262144x10, .f32⟩
  | .hbm, ⟨1, _⟩ => ⟨S262144x10, .f32⟩
  | .hbm, ⟨2, _⟩ => ⟨S10x10, .f32⟩
  | .hbm, ⟨3, _⟩ => ⟨S10x10, .f32⟩
  | .hbm, ⟨4, _⟩ => ⟨S100x10, .f32⟩
  | .hbm, ⟨5, _⟩ => ⟨S100x10, .f32⟩
  | .hbm, ⟨6, _⟩ => ⟨S19x100, .f32⟩
  | .hbm, ⟨7, _⟩ => ⟨S_, .f32⟩
  | .hbm, ⟨8, _⟩ => ⟨S10, .f32⟩
  | .hbm, ⟨9, _⟩ => ⟨S10x1, .f32⟩
  | .hbm, ⟨10, _⟩ => ⟨S_, .f32⟩
  | .hbm, ⟨11, _⟩ => ⟨S10, .f32⟩
  | .hbm, ⟨12, _⟩ => ⟨S10x1, .f32⟩
  | .hbm, ⟨13, _⟩ => ⟨S10x10, .f32⟩
  | .hbm, ⟨14, _⟩ => ⟨S10x10, .f32⟩
  | .hbm, ⟨15, _⟩ => ⟨S10x1, .f32⟩
  | .hbm, ⟨16, _⟩ => ⟨S_, .f32⟩
  | .hbm, ⟨17, _⟩ => ⟨S10x1, .f32⟩
  | .hbm, ⟨18, _⟩ => ⟨S10x1, .f32⟩
  | .hbm, ⟨19, _⟩ => ⟨S10x10, .f32⟩
  | .hbm, ⟨20, _⟩ => ⟨S10x10, .f32⟩
  | .hbm, ⟨21, _⟩ => ⟨S_, .f32⟩
  | .hbm, ⟨22, _⟩ => ⟨S10, .f32⟩
  | .hbm, ⟨23, _⟩ => ⟨S10x1, .f32⟩
  | .hbm, ⟨24, _⟩ => ⟨S_, .f32⟩
  | .hbm, ⟨25, _⟩ => ⟨S10x1, .f32⟩
  | .hbm, ⟨26, _⟩ => ⟨S10x1, .f32⟩
  | .hbm, ⟨27, _⟩ => ⟨S10x10, .f32⟩
  | .hbm, ⟨28, _⟩ => ⟨S10x10, .f32⟩
  | .hbm, ⟨29, _⟩ => ⟨S_, .f32⟩
  | .hbm, ⟨30, _⟩ => ⟨S10, .f32⟩
  | .hbm, ⟨31, _⟩ => ⟨S10x1, .f32⟩
  | .hbm, ⟨32, _⟩ => ⟨S_, .f32⟩
  | .hbm, ⟨33, _⟩ => ⟨S10, .f32⟩
  | .hbm, ⟨34, _⟩ => ⟨S10x1, .f32⟩
  | .hbm, ⟨35, _⟩ => ⟨S10x10, .f32⟩
  | .hbm, ⟨36, _⟩ => ⟨S10x10, .f32⟩
  | .hbm, ⟨37, _⟩ => ⟨S10x1, .f32⟩
  | .hbm, ⟨38, _⟩ => ⟨S_, .f32⟩
  | .hbm, ⟨39, _⟩ => ⟨S10x1, .f32⟩
  | .hbm, ⟨40, _⟩ => ⟨S10x1, .f32⟩
  | .hbm, ⟨41, _⟩ => ⟨S10x10, .f32⟩
  | .hbm, ⟨42, _⟩ => ⟨S10x10, .f32⟩
  | .hbm, ⟨43, _⟩ => ⟨S_, .f32⟩
  | .hbm, ⟨44, _⟩ => ⟨S10, .f32⟩
  | .hbm, ⟨45, _⟩ => ⟨S10x1, .f32⟩
  | .hbm, ⟨46, _⟩ => ⟨S_, .f32⟩
  | .hbm, ⟨47, _⟩ => ⟨S10x1, .f32⟩
  | .hbm, ⟨48, _⟩ => ⟨S10x1, .f32⟩
  | .hbm, ⟨49, _⟩ => ⟨S10x10, .f32⟩
  | .hbm, ⟨50, _⟩ => ⟨S10x10, .f32⟩
  | .hbm, ⟨51, _⟩ => ⟨S19x262144, .f32⟩
  | .hbm, ⟨52, _⟩ => ⟨S262144x19, .f32⟩
  | .local _ .vmem, ⟨0, _⟩ => ⟨S8192x10, .f32⟩
  | .local _ .vmem, ⟨1, _⟩ => ⟨S8192x10, .f32⟩
  | .local _ .vmem, ⟨2, _⟩ => ⟨S8192x10, .f32⟩
  | .local _ .vmem, ⟨3, _⟩ => ⟨S8192x10, .f32⟩
  | .local _ .vmem, ⟨4, _⟩ => ⟨S10x10, .f32⟩
  | .local _ .vmem, ⟨5, _⟩ => ⟨S10x10, .f32⟩
  | .local _ .vmem, ⟨6, _⟩ => ⟨S100x10, .f32⟩
  | .local _ .vmem, ⟨7, _⟩ => ⟨S100x10, .f32⟩
  | .local _ .vmem, ⟨8, _⟩ => ⟨S19x100, .f32⟩
  | .local _ .vmem, ⟨9, _⟩ => ⟨S19x8192, .f32⟩
  | .local _ .vmem, ⟨10, _⟩ => ⟨S19x8192, .f32⟩
  | _, _ => ⟨S262144x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_v0 : Ref sig .tc := ⟨.hbm, 8, rfl⟩
abbrev main_v1 : Ref sig .tc := ⟨.hbm, 9, rfl⟩
abbrev main_cst_3 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_cst_11 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S19x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S19x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S10x10_S10_d1 : S10x10.ReducesTo [1] S10
  h_S_ : 0 < S_.numel
  bcast_S10_S10x1_0 : S10.BroadcastsInDim S10x1 (![0] : Fin 1 → Fin S10x1.rank)
  bcast_S10x1_S10x10_0_1 : S10x1.BroadcastsInDim S10x10 (![0, 1] : Fin 2 → Fin S10x10.rank)
  bcast_S_S10x1 : S_.BroadcastsInDim S10x1 (![] : Fin 0 → Fin S10x1.rank)
  inb_S8192x10_S8192x10_0_0 : ∀ a, (![0, 0] : Fin 2 → Nat) a + S8192x10.size a ≤ S8192x10.size a
  h_S8192x10 : 0 < S8192x10.numel
  inb_S10x10_S10x10_0_0 : ∀ a, (![0, 0] : Fin 2 → Nat) a + S10x10.size a ≤ S10x10.size a
  h_S10x10 : 0 < S10x10.numel
  shapeCasts_S10x10_S10x10 : S10x10.ShapeCasts S10x10
  inb_S100x10_S100x10_0_0 : ∀ a, (![0, 0] : Fin 2 → Nat) a + S100x10.size a ≤ S100x10.size a
  h_S100x10 : 0 < S100x10.numel
  inb_S19x100_S19x100_0_0 : ∀ a, (![0, 0] : Fin 2 → Nat) a + S19x100.size a ≤ S19x100.size a
  h_S19x100 : 0 < S19x100.numel
  reduces_S19x8192_S8192 : S19x8192.Reduces [0] S8192
  shapeCasts_S8192_S1x8192 : S8192.ShapeCasts S1x8192
  broadcasts_S1x8192_S19x8192 : S1x8192.Broadcasts S19x8192
  inb_S19x8192_S19x8192_0_0 : ∀ a, (![0, 0] : Fin 2 → Nat) a + S19x8192.size a ≤ S19x8192.size a
  h_S19x8192 : 0 < S19x8192.numel
  transposes_S19x262144_S262144x19_1_0 : S19x262144.Transposes [1, 0] S262144x19
  dot_S10x10_S8192x10_S10x8192_1_1_0_0_n_n_wf : DotDims.WF S10x10 S8192x10 S10x8192 [1] [1] [0] [0] [] []
  dot_S100x10_S10x8192_S100x8192_1_0_0_1_n_n_wf : DotDims.WF S100x10 S10x8192 S100x8192 [1] [0] [0] [1] [] []
  dot_S19x100_S100x8192_S19x8192_1_0_0_1_n_n_wf : DotDims.WF S19x100 S100x8192 S19x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x10.size a ≤ S262144x10.size a
  hwx0_0 : ∀ i : grid0.Coords, EltTy.bits .f32 = 32 ∨ (Rect.block (s := S262144x10) S8192x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x10.size a ≤ S262144x10.size a
  hwx0_1 : ∀ i : grid0.Coords, EltTy.bits .f32 = 32 ∨ (Rect.block (s := S262144x10) S8192x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x10.size a ≤ S10x10.size a
  hwx0_2 : ∀ i : grid0.Coords, EltTy.bits .f32 = 32 ∨ (Rect.block (s := S10x10) S10x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x10.size a ≤ S10x10.size a
  hwx0_3 : ∀ i : grid0.Coords, EltTy.bits .f32 = 32 ∨ (Rect.block (s := S10x10) S10x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x10.size a ≤ S100x10.size a
  hwx0_4 : ∀ i : grid0.Coords, EltTy.bits .f32 = 32 ∨ (Rect.block (s := S100x10) S100x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x10.size a ≤ S100x10.size a
  hwx0_5 : ∀ i : grid0.Coords, EltTy.bits .f32 = 32 ∨ (Rect.block (s := S100x10) S100x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S19x100.size a ≤ S19x100.size a
  hwx0_6 : ∀ i : grid0.Coords, EltTy.bits .f32 = 32 ∨ (Rect.block (s := S19x100) S19x100.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S19x8192.size a ≤ S19x262144.size a
  hwx0_7 : ∀ i : grid0.Coords, EltTy.bits .f32 = 32 ∨ (Rect.block (s := S19x262144) S19x8192.size (cc0_transform_7 i) (hinb0_7 i)).WholeWords (EltTy.packing .f32)

variable [Facts₀]

def dot_S10x10_S8192x10_S10x8192_1_1_0_0_n_n : DotDims S10x10 S8192x10 S10x8192 where
  lhsContracting := [1]
  rhsContracting := [1]
  lhsNonContracting := [0]
  rhsNonContracting := [0]
  lhsBatch := []
  rhsBatch := []
  wf := dot_S10x10_S8192x10_S10x8192_1_1_0_0_n_n_wf
def dot_S100x10_S10x8192_S100x8192_1_0_0_1_n_n : DotDims S100x10 S10x8192 S100x8192 where
  lhsContracting := [1]
  rhsContracting := [0]
  lhsNonContracting := [0]
  rhsNonContracting := [1]
  lhsBatch := []
  rhsBatch := []
  wf := dot_S100x10_S10x8192_S100x8192_1_0_0_1_n_n_wf
def dot_S19x100_S100x8192_S19x8192_1_0_0_1_n_n : DotDims S19x100 S100x8192 S19x8192 where
  lhsContracting := [1]
  rhsContracting := [0]
  lhsNonContracting := [0]
  rhsNonContracting := [1]
  lhsBatch := []
  rhsBatch := []
  wf := dot_S19x100_S100x8192_S19x8192_1_0_0_1_n_n_wf

abbrev win0_0 : Pipeline.Window sig grid0 :=
  Pipeline.Window.ofSpec (Memref.whole main_arg0) S8192x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S10x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst) S100x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_cst_0) S100x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_cst_1) S19x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S19x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x10 : Shape := ⟨2, ![262144, 10]⟩
abbrev S10x10 : Shape := ⟨2, ![10, 10]⟩
abbrev S_ : Shape := ⟨0, ![]⟩
abbrev S10 : Shape := ⟨1, ![10]⟩
abbrev S10x1 : Shape := ⟨2, ![10, 1]⟩
abbrev S262144x10x1 : Shape := ⟨3, ![262144, 10, 1]⟩
abbrev S262144x1x10 : Shape := ⟨3, ![262144, 1, 10]⟩
abbrev S262144x10x10 : Shape := ⟨3, ![262144, 10, 10]⟩
abbrev S1x10 : Shape := ⟨2, ![1, 10]⟩
abbrev S100 : Shape := ⟨1, ![100]⟩
abbrev S100x1 : Shape := ⟨2, ![100, 1]⟩
abbrev S1x19 : Shape := ⟨2, ![1, 19]⟩
abbrev S100x19 : Shape := ⟨2, ![100, 19]⟩
abbrev S262144x100 : Shape := ⟨2, ![262144, 100]⟩
abbrev S262144x19 : Shape := ⟨2, ![262144, 19]⟩
abbrev S262144 : Shape := ⟨1, ![262144]⟩
abbrev S262144x1 : Shape := ⟨2, ![262144, 1]⟩

abbrev nBuf : Space → Nat
  | .hbm => 100
  | .vmem => 0
  | .smem => 0
  | _ => 0

abbrev bufTy : (tb : Table) → Fin (tcTables nBuf tb) → BufTy
  | .hbm, ⟨0, _⟩ => ⟨S262144x10, .f32⟩
  | .hbm, ⟨1, _⟩ => ⟨S262144x10, .f32⟩
  | .hbm, ⟨2, _⟩ => ⟨S10x10, .f32⟩
  | .hbm, ⟨3, _⟩ => ⟨S10x10, .f32⟩
  | .hbm, ⟨4, _⟩ => ⟨S_, .f32⟩
  | .hbm, ⟨5, _⟩ => ⟨S10, .f32⟩
  | .hbm, ⟨6, _⟩ => ⟨S10x1, .f32⟩
  | .hbm, ⟨7, _⟩ => ⟨S_, .f32⟩
  | .hbm, ⟨8, _⟩ => ⟨S10, .f32⟩
  | .hbm, ⟨9, _⟩ => ⟨S10x1, .f32⟩
  | .hbm, ⟨10, _⟩ => ⟨S10x10, .f32⟩
  | .hbm, ⟨11, _⟩ => ⟨S10x10, .f32⟩
  | .hbm, ⟨12, _⟩ => ⟨S10x1, .f32⟩
  | .hbm, ⟨13, _⟩ => ⟨S_, .f32⟩
  | .hbm, ⟨14, _⟩ => ⟨S10x1, .f32⟩
  | .hbm, ⟨15, _⟩ => ⟨S10x1, .f32⟩
  | .hbm, ⟨16, _⟩ => ⟨S10x10, .f32⟩
  | .hbm, ⟨17, _⟩ => ⟨S10x10, .f32⟩
  | .hbm, ⟨18, _⟩ => ⟨S_, .f32⟩
  | .hbm, ⟨19, _⟩ => ⟨S10, .f32⟩
  | .hbm, ⟨20, _⟩ => ⟨S10x1, .f32⟩
  | .hbm, ⟨21, _⟩ => ⟨S_, .f32⟩
  | .hbm, ⟨22, _⟩ => ⟨S10x1, .f32⟩
  | .hbm, ⟨23, _⟩ => ⟨S10x1, .f32⟩
  | .hbm, ⟨24, _⟩ => ⟨S10x10, .f32⟩
  | .hbm, ⟨25, _⟩ => ⟨S10x10, .f32⟩
  | .hbm, ⟨26, _⟩ => ⟨S10x10, .f32⟩
  | .hbm, ⟨27, _⟩ => ⟨S262144x10, .f32⟩
  | .hbm, ⟨28, _⟩ => ⟨S_, .f32⟩
  | .hbm, ⟨29, _⟩ => ⟨S10, .f32⟩
  | .hbm, ⟨30, _⟩ => ⟨S10x1, .f32⟩
  | .hbm, ⟨31, _⟩ => ⟨S_, .f32⟩
  | .hbm, ⟨32, _⟩ => ⟨S10, .f32⟩
  | .hbm, ⟨33, _⟩ => ⟨S10x1, .f32⟩
  | .hbm, ⟨34, _⟩ => ⟨S10x10, .f32⟩
  | .hbm, ⟨35, _⟩ => ⟨S10x10, .f32⟩
  | .hbm, ⟨36, _⟩ => ⟨S10x1, .f32⟩
  | .hbm, ⟨37, _⟩ => ⟨S_, .f32⟩
  | .hbm, ⟨38, _⟩ => ⟨S10x1, .f32⟩
  | .hbm, ⟨39, _⟩ => ⟨S10x1, .f32⟩
  | .hbm, ⟨40, _⟩ => ⟨S10x10, .f32⟩
  | .hbm, ⟨41, _⟩ => ⟨S10x10, .f32⟩
  | .hbm, ⟨42, _⟩ => ⟨S_, .f32⟩
  | .hbm, ⟨43, _⟩ => ⟨S10, .f32⟩
  | .hbm, ⟨44, _⟩ => ⟨S10x1, .f32⟩
  | .hbm, ⟨45, _⟩ => ⟨S_, .f32⟩
  | .hbm, ⟨46, _⟩ => ⟨S10x1, .f32⟩
  | .hbm, ⟨47, _⟩ => ⟨S10x1, .f32⟩
  | .hbm, ⟨48, _⟩ => ⟨S10x10, .f32⟩
  | .hbm, ⟨49, _⟩ => ⟨S10x10, .f32⟩
  | .hbm, ⟨50, _⟩ => ⟨S10x10, .f32⟩
  | .hbm, ⟨51, _⟩ => ⟨S262144x10, .f32⟩
  | .hbm, ⟨52, _⟩ => ⟨S262144x10x1, .f32⟩
  | .hbm, ⟨53, _⟩ => ⟨S262144x1x10, .f32⟩
  | .hbm, ⟨54, _⟩ => ⟨S262144x10x10, .f32⟩
  | .hbm, ⟨55, _⟩ => ⟨S262144x10x10, .f32⟩
  | .hbm, ⟨56, _⟩ => ⟨S262144x10x10, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S262144x10x10, .f32⟩
  | .hbm, ⟨61, _⟩ => ⟨S262144x10x10, .f32⟩
  | .hbm, ⟨62, _⟩ => ⟨S_, .f32⟩
  | .hbm, ⟨63, _⟩ => ⟨S262144x10x10, .f32⟩
  | .hbm, ⟨64, _⟩ => ⟨S262144x10x10, .f32⟩
  | .hbm, ⟨65, _⟩ => ⟨S_, .f32⟩
  | .hbm, ⟨66, _⟩ => ⟨S262144x10x10, .f32⟩
  | .hbm, ⟨67, _⟩ => ⟨S262144x10x10, .f32⟩
  | .hbm, ⟨68, _⟩ => ⟨S_, .f32⟩
  | .hbm, ⟨69, _⟩ => ⟨S262144x10x10, .f32⟩
  | .hbm, ⟨70, _⟩ => ⟨S262144x10x10, .f32⟩
  | .hbm, ⟨71, _⟩ => ⟨S262144x10x10, .f32⟩
  | .hbm, ⟨72, _⟩ => ⟨S10, .i32⟩
  | .hbm, ⟨73, _⟩ => ⟨S10x1, .i32⟩
  | .hbm, ⟨74, _⟩ => ⟨S10, .i32⟩
  | .hbm, ⟨75, _⟩ => ⟨S1x10, .i32⟩
  | .hbm, ⟨76, _⟩ => ⟨S10x10, .i32⟩
  | .hbm, ⟨77, _⟩ => ⟨S10x10, .i32⟩
  | .hbm, ⟨78, _⟩ => ⟨S10x10, .i32⟩
  | .hbm, ⟨79, _⟩ => ⟨S100, .i32⟩
  | .hbm, ⟨80, _⟩ => ⟨S100x1, .i32⟩
  | .hbm, ⟨81, _⟩ => ⟨S1x19, .i32⟩
  | .hbm, ⟨82, _⟩ => ⟨S100x19, .i32⟩
  | .hbm, ⟨83, _⟩ => ⟨S100x19, .i32⟩
  | .hbm, ⟨84, _⟩ => ⟨S100x19, .i1⟩
  | .hbm, ⟨85, _⟩ => ⟨S100x19, .f32⟩
  | .hbm, ⟨86, _⟩ => ⟨S262144x100, .f32⟩
  | .hbm, ⟨87, _⟩ => ⟨S262144x19, .f32⟩
  | .hbm, ⟨88, _⟩ => ⟨S262144x19, .f32⟩
  | .hbm, ⟨89, _⟩ => ⟨S_, .f32⟩
  | .hbm, ⟨90, _⟩ => ⟨S262144x19, .f32⟩
  | .hbm, ⟨91, _⟩ => ⟨S262144x19, .f32⟩
  | .hbm, ⟨92, _⟩ => ⟨S_, .f32⟩
  | .hbm, ⟨93, _⟩ => ⟨S262144, .f32⟩
  | .hbm, ⟨94, _⟩ => ⟨S262144x1, .f32⟩
  | .hbm, ⟨95, _⟩ => ⟨S_, .f32⟩
  | .hbm, ⟨96, _⟩ => ⟨S262144x1, .f32⟩
  | .hbm, ⟨97, _⟩ => ⟨S262144x1, .f32⟩
  | .hbm, ⟨98, _⟩ => ⟨S262144x19, .f32⟩
  | .hbm, ⟨99, _⟩ => ⟨S262144x19, .f32⟩
  | _, _ => ⟨S262144x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_cst_10 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]

class Facts₀ : Prop where
  reducesTo_S10x10_S10_d1 : S10x10.ReducesTo [1] S10
  h_S_ : 0 < S_.numel
  bcast_S10_S10x1_0 : S10.BroadcastsInDim S10x1 (![0] : Fin 1 → Fin S10x1.rank)
  bcast_S10x1_S10x10_0_1 : S10x1.BroadcastsInDim S10x10 (![0, 1] : Fin 2 → Fin S10x10.rank)
  bcast_S_S10x1 : S_.BroadcastsInDim S10x1 (![] : Fin 0 → Fin S10x1.rank)
  transposes_S10x10_S10x10_1_0 : S10x10.Transposes [1, 0] S10x10
  bcast_S262144x10_S262144x10x1_0_1 : S262144x10.BroadcastsInDim S262144x10x1 (![0, 1] : Fin 2 → Fin S262144x10x1.rank)
  bcast_S262144x10_S262144x1x10_0_2 : S262144x10.BroadcastsInDim S262144x1x10 (![0, 2] : Fin 2 → Fin S262144x1x10.rank)
  bcast_S262144x10x1_S262144x10x10_0_1_2 : S262144x10x1.BroadcastsInDim S262144x10x10 (![0, 1, 2] : Fin 3 → Fin S262144x10x10.rank)
  bcast_S262144x1x10_S262144x10x10_0_1_2 : S262144x1x10.BroadcastsInDim S262144x10x10 (![0, 1, 2] : Fin 3 → Fin S262144x10x10.rank)
  bcast_S_S262144x10x10 : S_.BroadcastsInDim S262144x10x10 (![] : Fin 0 → Fin S262144x10x10.rank)
  bcast_S10_S1x10_1 : S10.BroadcastsInDim S1x10 (![1] : Fin 1 → Fin S1x10.rank)
  bcast_S1x10_S10x10_0_1 : S1x10.BroadcastsInDim S10x10 (![0, 1] : Fin 2 → Fin S10x10.rank)
  shapeCasts_S10x10_S100 : S10x10.ShapeCasts S100
  bcast_S100_S100x1_0 : S100.BroadcastsInDim S100x1 (![0] : Fin 1 → Fin S100x1.rank)
  bcast_S100x1_S100x19_0_1 : S100x1.BroadcastsInDim S100x19 (![0, 1] : Fin 2 → Fin S100x19.rank)
  bcast_S1x19_S100x19_0_1 : S1x19.BroadcastsInDim S100x19 (![0, 1] : Fin 2 → Fin S100x19.rank)
  shapeCasts_S262144x10x10_S262144x100 : S262144x10x10.ShapeCasts S262144x100
  bcast_S_S262144x19 : S_.BroadcastsInDim S262144x19 (![] : Fin 0 → Fin S262144x19.rank)
  reducesTo_S262144x19_S262144_d1 : S262144x19.ReducesTo [1] S262144
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x19_0_1 : S262144x1.BroadcastsInDim S262144x19 (![0, 1] : Fin 2 → Fin S262144x19.rank)
  dot_S262144x10_S10x10_S262144x10_1_0_0_1_n_n_wf : DotDims.WF S262144x10 S10x10 S262144x10 [1] [0] [0] [1] [] []
  dot_S262144x100_S100x19_S262144x19_1_0_0_1_n_n_wf : DotDims.WF S262144x100 S100x19 S262144x19 [1] [0] [0] [1] [] []

variable [Facts₀]

def dot_S262144x10_S10x10_S262144x10_1_0_0_1_n_n : DotDims S262144x10 S10x10 S262144x10 where
  lhsContracting := [1]
  rhsContracting := [0]
  lhsNonContracting := [0]
  rhsNonContracting := [1]
  lhsBatch := []
  rhsBatch := []
  wf := dot_S262144x10_S10x10_S262144x10_1_0_0_1_n_n_wf
def dot_S262144x100_S100x19_S262144x19_1_0_0_1_n_n : DotDims S262144x100 S100x19 S262144x19 where
  lhsContracting := [1]
  rhsContracting := [0]
  lhsNonContracting := [0]
  rhsNonContracting := [1]
  lhsBatch := []
  rhsBatch := []
  wf := dot_S262144x100_S100x19_S262144x19_1_0_0_1_n_n_wf

class Facts : Prop extends Facts₀ where

variable [Facts]
-- ==== Proof.Tables.lean ====
/-
  The three constant tables the kernel is launched with, read entry by entry.

  With a cell number `c = 10·i + j` (0 ≤ i, j < 10) of the 10 × 10 grid of pairs flattened row-major:
  * the first 100 × 10 table has a one at `(c, i)` exactly when `i = c / 10` — it copies the value of row `c / 10`;
  * the second 100 × 10 table has a one at `(c, j)` exactly when `j = c % 10` — it copies the value of row `c % 10`;
  * the 19 × 100 table has a one at `(k, c)` exactly when `c / 10 + c % 10 = k` — it gathers the cells on the
    anti-diagonal `i + j = k`.
  Every other entry is zero. Each statement is a finite check over the table's entries.
-/
import proofs.«136630_j52192442581023_2_alg».proof.KernelIdeal

namespace Cert.Tables

open Cert.KernelIdeal

theorem rowSel (c : Fin 100) (i : Fin 10) :
    lit0t (c.val * 10 + i.val) = if i.val = c.val / 10 then 0x3F800000#32 else 0x00000000#32 :=
  (by decide +kernel : ∀ (c : Fin 100) (i : Fin 10),
    lit0t (c.val * 10 + i.val) = if i.val = c.val / 10 then 0x3F800000#32 else 0x00000000#32) c i

theorem colSel (c : Fin 100) (j : Fin 10) :
    lit1t (c.val * 10 + j.val) = if j.val = c.val % 10 then 0x3F800000#32 else 0x00000000#32 :=
  (by decide +kernel : ∀ (c : Fin 100) (j : Fin 10),
    lit1t (c.val * 10 + j.val) = if j.val = c.val % 10 then 0x3F800000#32 else 0x00000000#32) c j

theorem diagSel (k : Fin 19) (c : Fin 100) :
    lit2t (k.val * 100 + c.val) = if c.val / 10 + c.val % 10 = k.val then 0x3F800000#32 else 0x00000000#32 :=
  (by decide +kernel : ∀ (k : Fin 19) (c : Fin 100),
    lit2t (k.val * 100 + c.val) = if c.val / 10 + c.val % 10 = k.val then 0x3F800000#32 else 0x00000000#32) k c

end Cert.Tables
-- ==== Proof.LibLogClamp.lean ====
/-
  General facts about the exact (extended-real) reading of floats, used to move a logarithm across a minimum
  and to collapse a product with a 0/1 selector table.

  * The logarithm on the extended reals is monotone: every non-positive number is sent to the bottom element, a
    positive real to its real logarithm, the top element to itself.
  * Hence `x ↦ log (u - min hi (max lo x) + e)` is antitone, for any constants: clamping is monotone, the
    complement `u - ·` reverses the order, adding a constant and taking the logarithm preserve it. An antitone
    map sends a minimum to the maximum of the images.
  * A sum over an index of `(if i = j then 1 else 0) * g i` is `g j`: zero times anything is zero on the extended reals.
  * The float pattern 0x3F800000 denotes the number one.
-/
import Idealize.ShloMosaic.PureOps.Ideal
import Idealize.ShloMosaic.PureOps.Ideal.Laws

noncomputable section

namespace Cert.LibLogClamp

open Idealize.ShloMosaic
open scoped BigOperators

/-- The extended-real logarithm is monotone. -/
theorem log_mono : Monotone Ideal.log := by
  intro x y h
  induction x using EReal.rec with
  | bot => rw [Ideal.log_bot]; exact bot_le
  | top =>
    have hy : y = ⊤ := top_le_iff.mp h
    subst hy; exact le_rfl
  | coe r =>
    induction y using EReal.rec with
    | bot => exact absurd h (by simp)
    | top => rw [Ideal.log_top]; exact le_top
    | coe s =>
      have hrs : r ≤ s := EReal.coe_le_coe_iff.mp h
      rw [Ideal.log_coe, Ideal.log_coe]
      by_cases hr : r ≤ 0
      · rw [if_pos hr]; exact bot_le
      · have hs : ¬ s ≤ 0 := fun hs => hr (hrs.trans hs)
        rw [if_neg hr, if_neg hs]
        exact EReal.coe_le_coe_iff.mpr (Real.log_le_log (not_le.mp hr) hrs)

/-- The logarithm of the complement of a clamped value, shifted by a constant, reverses the order. -/
theorem clampLog_antitone (lo hi u e : EReal) :
    Antitone fun x : EReal => Ideal.log (u - min hi (max lo x) + e) := by
  intro x y h
  apply log_mono
  refine add_le_add ?_ le_rfl
  exact EReal.sub_le_sub le_rfl (min_le_min le_rfl (max_le_max le_rfl h))

/-- So at a minimum it takes the maximum of the two values. -/
theorem clampLog_min (lo hi u e a b : EReal) :
    Ideal.log (u - min hi (max lo (min a b)) + e)
      = max (Ideal.log (u - min hi (max lo a) + e)) (Ideal.log (u - min hi (max lo b) + e)) :=
  (clampLog_antitone lo hi u e).map_min

/-- A sum against a 0/1 selector is the selected term. -/
theorem sum_select_mul {n : Nat} (j : Fin n) (g : Fin n → EReal) :
    ∑ i : Fin n, (if i = j then (1 : EReal) else 0) * g i = g j := by
  rw [Finset.sum_eq_single j]
  · rw [if_pos rfl, one_mul]
  · intro b _ hb; rw [if_neg hb, zero_mul]
  · intro h; exact absurd (Finset.mem_univ j) h

/-- The pattern 0x3F800000 is the number one. -/
theorem ofBits_one_f32 : Ideal.ofBits .f32 0x3F800000#32 = 1 := by
  simp [Ideal.ofBits, Ideal.ieee, -EReal.coe_mul]
  norm_num

end Cert.LibLogClamp

end
-- ==== Proof.RowSpec.lean ====
/-
  The result for ONE batch row, as a function of that row of each input and of the two 10 × 10 mixing matrices.

  For a row `a` of the first input and a row `b` of the second:
    u i = Σ_k P1 i k · a k,     v j = Σ_k P2 j k · b k                      (two length-10 mixes)
    cell c = L (min (u (c / 10)) (v (c % 10)))   for the 100 pairs c = 10·i + j,
  where `L x = log (1 - clamp x + ε)` is the logarithm of the complement of the clamped value;
    logProd k = Σ_c [c / 10 + c % 10 = k] · cell c                           (the 19 anti-diagonals i + j = k)
    y k = 1 - exp (logProd k),     out k = y k / (Σ_k' y k' + δ).

  The one law needed later: `L` reverses the order, so `L (min x y) = max (L x) (L y)`; a program that first
  takes `L` of the 10 + 10 mixed values, copies them to the 100 pairs with 0/1 selector tables and then takes the
  maximum of each pair computes the same cell (`cell_of_selectors`).
-/
import proofs.«136630_j52192442581023_2_alg».proof.Proof.LibLogClamp

noncomputable section

namespace Cert.RowSpec

open Idealize.ShloMosaic Cert.LibLogClamp
open scoped BigOperators

/-- The logarithm of the complement of a clamped number, with the program's constants. -/
def nlog (x : EReal) : EReal :=
  Ideal.log (Ideal.ofBits .f32 0x3F800000#32
    - min (Ideal.ofBits .f32 0x3F7FFFEF#32) (max (Ideal.ofBits .f32 0x358637BD#32) x)
    + Ideal.ofBits .f32 0x2B8CBCCC#32)

/-- It turns a minimum into a maximum. -/
theorem nlog_min (a b : EReal) : nlog (min a b) = max (nlog a) (nlog b) :=
  clampLog_min _ _ _ _ a b

/-- A row mixed by a 10 × 10 matrix. -/
def lin (P : Fin 10 → Fin 10 → EReal) (a : Fin 10 → EReal) (i : Fin 10) : EReal := ∑ k : Fin 10, P i k * a k

/-- The first and the second member of pair number `c`. -/
def rowOf (c : Fin 100) : Fin 10 := ⟨c.val / 10, by have := c.isLt; omega⟩
def colOf (c : Fin 100) : Fin 10 := ⟨c.val % 10, Nat.mod_lt _ (by decide)⟩

/-- One when pair `c` lies on anti-diagonal `k`, else zero. -/
def onDiag (c : Fin 100) (k : Fin 19) : EReal := if c.val / 10 + c.val % 10 = k.val then 1 else 0

def cell (P1 P2 : Fin 10 → Fin 10 → EReal) (a b : Fin 10 → EReal) (c : Fin 100) : EReal :=
  nlog (min (lin P1 a (rowOf c)) (lin P2 b (colOf c)))

def logProd (P1 P2 : Fin 10 → Fin 10 → EReal) (a b : Fin 10 → EReal) (k : Fin 19) : EReal :=
  ∑ c : Fin 100, onDiag c k * cell P1 P2 a b c

def smoothOr (P1 P2 : Fin 10 → Fin 10 → EReal) (a b : Fin 10 → EReal) (k : Fin 19) : EReal :=
  Ideal.ofBits .f32 0x3F800000#32 - Ideal.exp (logProd P1 P2 a b k)

def out (P1 P2 : Fin 10 → Fin 10 → EReal) (a b : Fin 10 → EReal) (k : Fin 19) : EReal :=
  Ideal.div (smoothOr P1 P2 a b k) ((∑ k' : Fin 19, smoothOr P1 P2 a b k') + Ideal.ofBits .f32 0x3089705F#32)

/-- Selector tables that copy `L (u i)` and `L (v j)` to the pairs, followed by the maximum, give the cell. -/
theorem cell_of_selectors (P1 P2 : Fin 10 → Fin 10 → EReal) (a b : Fin 10 → EReal)
    (E1 E2 : Fin 100 → Fin 10 → EReal)
    (hE1 : ∀ c i, E1 c i = if i = rowOf c then 1 else 0)
    (hE2 : ∀ c j, E2 c j = if j = colOf c then 1 else 0) (c : Fin 100) :
    max (∑ i : Fin 10, E1 c i * nlog (lin P1 a i)) (∑ j : Fin 10, E2 c j * nlog (lin P2 b j))
      = cell P1 P2 a b c := by
  simp only [hE1, hE2]
  rw [sum_select_mul (rowOf c) (fun i => nlog (lin P1 a i)), sum_select_mul (colOf c) (fun j => nlog (lin P2 b j))]
  exact (nlog_min _ _).symm

end Cert.RowSpec

end
-- ==== Proof.KernelRow.lean ====
/-
  The two pure terms of the kernel body, read at one entry.

  The body's first term is, at pair `c` and batch column `n` of the block, the maximum of two selector products
  `Σ_i E1 (c, i) · L (Σ_k P1 (i, k) · p1 (n, k))` and `Σ_j E2 (c, j) · L (Σ_k P2 (j, k) · p2 (n, k))`, where every
  matrix product runs into a zero accumulator and so is the plain sum over the contracted axis; with the tables'
  entries known this is the cell of the row specification. The second term, at anti-diagonal `k` and column `n`,
  is `y k / (Σ_k' y k' + δ)` with `y k = 1 - exp (Σ_c M (k, c) · s (c, n))`: the sum over the 19 rows is a lane
  reduction along axis 0, reshaped to one row and broadcast back over the 19 rows.
-/
import proofs.«136630_j52192442581023_2_alg».proof.Proof.Gen.KernelIdeal.Skeleton
import proofs.«136630_j52192442581023_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelRow

open Cert.KernelIdeal Cert.KernelIdeal.Gen Idealize.ShloMosaic Idealize.ShloMosaic.ValueIdx Cert.RowSpec
open scoped BigOperators

/-! ## The three matrix products, entry by entry -/

theorem mixL0 (j : S10x8192.Idx) (q : dot_S10x10_S8192x10_S10x8192_1_1_0_0_n_n.contr.Idx) : (dot_S10x10_S8192x10_S10x8192_1_1_0_0_n_n.lhsIdx j q 0).val = (j 0).val := by
  unfold DotDims.lhsIdx
  rw [dif_neg (show ¬(0 : Fin S10x10.rank) ∈ dot_S10x10_S8192x10_S10x8192_1_1_0_0_n_n.lhsBatch by decide), dif_pos (show (0 : Fin S10x10.rank) ∈ dot_S10x10_S8192x10_S10x8192_1_1_0_0_n_n.lhsNonContracting by decide)]
  rfl
theorem mixL1 (j : S10x8192.Idx) (q : dot_S10x10_S8192x10_S10x8192_1_1_0_0_n_n.contr.Idx) : (dot_S10x10_S8192x10_S10x8192_1_1_0_0_n_n.lhsIdx j q 1).val = (q ⟨0, by decide⟩).val :=
  dot_S10x10_S8192x10_S10x8192_1_1_0_0_n_n.lhsIdx_val_of_single rfl j q
theorem mixRk (j : S10x8192.Idx) (q : dot_S10x10_S8192x10_S10x8192_1_1_0_0_n_n.contr.Idx) : (dot_S10x10_S8192x10_S10x8192_1_1_0_0_n_n.rhsIdx j q 1).val = (q ⟨0, by decide⟩).val :=
  dot_S10x10_S8192x10_S10x8192_1_1_0_0_n_n.rhsIdx_val_of_single rfl j q
theorem mixRn (j : S10x8192.Idx) (q : dot_S10x10_S8192x10_S10x8192_1_1_0_0_n_n.contr.Idx) : (dot_S10x10_S8192x10_S10x8192_1_1_0_0_n_n.rhsIdx j q 0).val = (j 1).val := by
  unfold DotDims.rhsIdx
  rw [dif_neg (show ¬(0 : Fin S8192x10.rank) ∈ dot_S10x10_S8192x10_S10x8192_1_1_0_0_n_n.rhsBatch by decide), dif_pos (show (0 : Fin S8192x10.rank) ∈ dot_S10x10_S8192x10_S10x8192_1_1_0_0_n_n.rhsNonContracting by decide)]
  rfl

/-- A 10 × 10 matrix against a block of rows, both contracted along their second axis: entry `(p, n)` is `Σ_k l (p, k) · r (n, k)`. -/
theorem mix_apply (l : FVec Ideal S10x10 .f32) (r : FVec Ideal S8192x10 .f32) (p : Fin 10) (n : Fin 8192) :
    matmul dot_S10x10_S8192x10_S10x8192_1_1_0_0_n_n (some .fp32) l r (constant (F := Ideal) S10x8192 .f32 0x00000000#32) (ix2 p n)
      = ∑ k : Fin 10, l (ix2 p k) * r (ix2 n k) := by
  refine (Ideal.matmul_constant_zero_apply dot_S10x10_S8192x10_S10x8192_1_1_0_0_n_n (some .fp32) l r (ix2 p n)).trans ?_
  rw [← Equiv.sum_comp (contrEquiv1 dot_S10x10_S8192x10_S10x8192_1_1_0_0_n_n 10 rfl rfl).symm]
  refine Finset.sum_congr rfl fun k _ => ?_
  have hk := contrEquiv1_symm_val dot_S10x10_S8192x10_S10x8192_1_1_0_0_n_n 10 rfl rfl k
  have el : dot_S10x10_S8192x10_S10x8192_1_1_0_0_n_n.lhsIdx (ix2 p n) ((contrEquiv1 dot_S10x10_S8192x10_S10x8192_1_1_0_0_n_n 10 rfl rfl).symm k) = ix2 p k := funext fun a => Fin.ext (by
    match a with
    | ⟨0, _⟩ => exact mixL0 _ _
    | ⟨1, _⟩ => exact (mixL1 _ _).trans hk)
  have er : dot_S10x10_S8192x10_S10x8192_1_1_0_0_n_n.rhsIdx (ix2 p n) ((contrEquiv1 dot_S10x10_S8192x10_S10x8192_1_1_0_0_n_n 10 rfl rfl).symm k) = ix2 n k := funext fun a => Fin.ext (by
    match a with
    | ⟨1, _⟩ => exact (mixRk _ _).trans hk
    | ⟨0, _⟩ => exact mixRn _ _)
  rw [el, er]

theorem selL0 (j : S100x8192.Idx) (q : dot_S100x10_S10x8192_S100x8192_1_0_0_1_n_n.contr.Idx) : (dot_S100x10_S10x8192_S100x8192_1_0_0_1_n_n.lhsIdx j q 0).val = (j 0).val := by
  unfold DotDims.lhsIdx
  rw [dif_neg (show ¬(0 : Fin S100x10.rank) ∈ dot_S100x10_S10x8192_S100x8192_1_0_0_1_n_n.lhsBatch by decide), dif_pos (show (0 : Fin S100x10.rank) ∈ dot_S100x10_S10x8192_S100x8192_1_0_0_1_n_n.lhsNonContracting by decide)]
  rfl
theorem selL1 (j : S100x8192.Idx) (q : dot_S100x10_S10x8192_S100x8192_1_0_0_1_n_n.contr.Idx) : (dot_S100x10_S10x8192_S100x8192_1_0_0_1_n_n.lhsIdx j q 1).val = (q ⟨0, by decide⟩).val :=
  dot_S100x10_S10x8192_S100x8192_1_0_0_1_n_n.lhsIdx_val_of_single rfl j q
theorem selRk (j : S100x8192.Idx) (q : dot_S100x10_S10x8192_S100x8192_1_0_0_1_n_n.contr.Idx) : (dot_S100x10_S10x8192_S100x8192_1_0_0_1_n_n.rhsIdx j q 0).val = (q ⟨0, by decide⟩).val :=
  dot_S100x10_S10x8192_S100x8192_1_0_0_1_n_n.rhsIdx_val_of_single rfl j q
theorem selRn (j : S100x8192.Idx) (q : dot_S100x10_S10x8192_S100x8192_1_0_0_1_n_n.contr.Idx) : (dot_S100x10_S10x8192_S100x8192_1_0_0_1_n_n.rhsIdx j q 1).val = (j 1).val := by
  unfold DotDims.rhsIdx
  rw [dif_neg (show ¬(1 : Fin S10x8192.rank) ∈ dot_S100x10_S10x8192_S100x8192_1_0_0_1_n_n.rhsBatch by decide), dif_pos (show (1 : Fin S10x8192.rank) ∈ dot_S100x10_S10x8192_S100x8192_1_0_0_1_n_n.rhsNonContracting by decide)]
  rfl

/-- A 100 × 10 table against a 10 × 8192 array: entry `(p, n)` is `Σ_k l (p, k) · r (k, n)`. -/
theorem sel_apply (l : FVec Ideal S100x10 .f32) (r : FVec Ideal S10x8192 .f32) (p : Fin 100) (n : Fin 8192) :
    matmul dot_S100x10_S10x8192_S100x8192_1_0_0_1_n_n (some .fp32) l r (constant (F := Ideal) S100x8192 .f32 0x00000000#32) (ix2 p n)
      = ∑ k : Fin 10, l (ix2 p k) * r (ix2 k n) := by
  refine (Ideal.matmul_constant_zero_apply dot_S100x10_S10x8192_S100x8192_1_0_0_1_n_n (some .fp32) l r (ix2 p n)).trans ?_
  rw [← Equiv.sum_comp (contrEquiv1 dot_S100x10_S10x8192_S100x8192_1_0_0_1_n_n 10 rfl rfl).symm]
  refine Finset.sum_congr rfl fun k _ => ?_
  have hk := contrEquiv1_symm_val dot_S100x10_S10x8192_S100x8192_1_0_0_1_n_n 10 rfl rfl k
  have el : dot_S100x10_S10x8192_S100x8192_1_0_0_1_n_n.lhsIdx (ix2 p n) ((contrEquiv1 dot_S100x10_S10x8192_S100x8192_1_0_0_1_n_n 10 rfl rfl).symm k) = ix2 p k := funext fun a => Fin.ext (by
    match a with
    | ⟨0, _⟩ => exact selL0 _ _
    | ⟨1, _⟩ => exact (selL1 _ _).trans hk)
  have er : dot_S100x10_S10x8192_S100x8192_1_0_0_1_n_n.rhsIdx (ix2 p n) ((contrEquiv1 dot_S100x10_S10x8192_S100x8192_1_0_0_1_n_n 10 rfl rfl).symm k) = ix2 k n := funext fun a => Fin.ext (by
    match a with
    | ⟨0, _⟩ => exact (selRk _ _).trans hk
    | ⟨1, _⟩ => exact selRn _ _)
  rw [el, er]

theorem diagL0 (j : S19x8192.Idx) (q : dot_S19x100_S100x8192_S19x8192_1_0_0_1_n_n.contr.Idx) : (dot_S19x100_S100x8192_S19x8192_1_0_0_1_n_n.lhsIdx j q 0).val = (j 0).val := by
  unfold DotDims.lhsIdx
  rw [dif_neg (show ¬(0 : Fin S19x100.rank) ∈ dot_S19x100_S100x8192_S19x8192_1_0_0_1_n_n.lhsBatch by decide), dif_pos (show (0 : Fin S19x100.rank) ∈ dot_S19x100_S100x8192_S19x8192_1_0_0_1_n_n.lhsNonContracting by decide)]
  rfl
theorem diagL1 (j : S19x8192.Idx) (q : dot_S19x100_S100x8192_S19x8192_1_0_0_1_n_n.contr.Idx) : (dot_S19x100_S100x8192_S19x8192_1_0_0_1_n_n.lhsIdx j q 1).val = (q ⟨0, by decide⟩).val :=
  dot_S19x100_S100x8192_S19x8192_1_0_0_1_n_n.lhsIdx_val_of_single rfl j q
theorem diagRk (j : S19x8192.Idx) (q : dot_S19x100_S100x8192_S19x8192_1_0_0_1_n_n.contr.Idx) : (dot_S19x100_S100x8192_S19x8192_1_0_0_1_n_n.rhsIdx j q 0).val = (q ⟨0, by decide⟩).val :=
  dot_S19x100_S100x8192_S19x8192_1_0_0_1_n_n.rhsIdx_val_of_single rfl j q
theorem diagRn (j : S19x8192.Idx) (q : dot_S19x100_S100x8192_S19x8192_1_0_0_1_n_n.contr.Idx) : (dot_S19x100_S100x8192_S19x8192_1_0_0_1_n_n.rhsIdx j q 1).val = (j 1).val := by
  unfold DotDims.rhsIdx
  rw [dif_neg (show ¬(1 : Fin S100x8192.rank) ∈ dot_S19x100_S100x8192_S19x8192_1_0_0_1_n_n.rhsBatch by decide), dif_pos (show (1 : Fin S100x8192.rank) ∈ dot_S19x100_S100x8192_S19x8192_1_0_0_1_n_n.rhsNonContracting by decide)]
  rfl

/-- A 19 × 100 table against a 100 × 8192 array: entry `(p, n)` is `Σ_k l (p, k) · r (k, n)`. -/
theorem diag_apply (l : FVec Ideal S19x100 .f32) (r : FVec Ideal S100x8192 .f32) (p : Fin 19) (n : Fin 8192) :
    matmul dot_S19x100_S100x8192_S19x8192_1_0_0_1_n_n (some .fp32) l r (constant (F := Ideal) S19x8192 .f32 0x00000000#32) (ix2 p n)
      = ∑ k : Fin 100, l (ix2 p k) * r (ix2 k n) := by
  refine (Ideal.matmul_constant_zero_apply dot_S19x100_S100x8192_S19x8192_1_0_0_1_n_n (some .fp32) l r (ix2 p n)).trans ?_
  rw [← Equiv.sum_comp (contrEquiv1 dot_S19x100_S100x8192_S19x8192_1_0_0_1_n_n 100 rfl rfl).symm]
  refine Finset.sum_congr rfl fun k _ => ?_
  have hk := contrEquiv1_symm_val dot_S19x100_S100x8192_S19x8192_1_0_0_1_n_n 100 rfl rfl k
  have el : dot_S19x100_S100x8192_S19x8192_1_0_0_1_n_n.lhsIdx (ix2 p n) ((contrEquiv1 dot_S19x100_S100x8192_S19x8192_1_0_0_1_n_n 100 rfl rfl).symm k) = ix2 p k := funext fun a => Fin.ext (by
    match a with
    | ⟨0, _⟩ => exact diagL0 _ _
    | ⟨1, _⟩ => exact (diagL1 _ _).trans hk)
  have er : dot_S19x100_S100x8192_S19x8192_1_0_0_1_n_n.rhsIdx (ix2 p n) ((contrEquiv1 dot_S19x100_S100x8192_S19x8192_1_0_0_1_n_n 100 rfl rfl).symm k) = ix2 k n := funext fun a => Fin.ext (by
    match a with
    | ⟨0, _⟩ => exact (diagRk _ _).trans hk
    | ⟨1, _⟩ => exact diagRn _ _)
  rw [el, er]

/-! ## The first term: the 100 cells of a column -/

/-- At pair `c` and column `n` the first term is the cell of the row specification, for the two mixing matrices
    and the column's rows of the two inputs, once the two tables are the selectors. -/
theorem pay2_apply (x0 x1 : Vec Ideal S8192x10 .f32) (x2 x3 : Vec Ideal S10x10 .f32) (x4 x5 : Vec Ideal S100x10 .f32)
    (hE1 : ∀ (c : Fin 100) (i : Fin 10), x4 (ix2 c i) = if i = rowOf c then 1 else 0)
    (hE2 : ∀ (c : Fin 100) (j : Fin 10), x5 (ix2 c j) = if j = colOf c then 1 else 0)
    (c : Fin 100) (n : Fin 8192) :
    k0_pay2 x0 x1 x2 x3 x4 x5 (ix2 c n)
      = cell (fun i k => x2 (ix2 i k)) (fun j k => x3 (ix2 j k)) (fun k => x0 (ix2 n k)) (fun k => x1 (ix2 n k)) c := by
  rw [← cell_of_selectors _ _ _ _ (fun c i => x4 (ix2 c i)) (fun c j => x5 (ix2 c j)) hE1 hE2 c]
  unfold k0_pay2
  show max (matmul dot_S100x10_S10x8192_S100x8192_1_0_0_1_n_n (some .fp32) x4 _ (constant (F := Ideal) S100x8192 .f32 0x00000000#32) (ix2 c n))
      (matmul dot_S100x10_S10x8192_S100x8192_1_0_0_1_n_n (some .fp32) x5 _ (constant (F := Ideal) S100x8192 .f32 0x00000000#32) (ix2 c n)) = _
  rw [sel_apply, sel_apply]
  refine congrArg₂ max (Finset.sum_congr rfl fun i _ => congrArg (x4 (ix2 c i) * ·) ?_)
    (Finset.sum_congr rfl fun j _ => congrArg (x5 (ix2 c j) * ·) ?_)
  · show Ideal.log (Ideal.ofBits .f32 0x3F800000#32 - min (Ideal.ofBits .f32 0x3F7FFFEF#32) (max (Ideal.ofBits .f32 0x358637BD#32)
        (matmul dot_S10x10_S8192x10_S10x8192_1_1_0_0_n_n (some .fp32) (shapeCast S10x10 x2 shapeCasts_S10x10_S10x10) x0 (constant (F := Ideal) S10x8192 .f32 0x00000000#32) (ix2 i n)))
        + Ideal.ofBits .f32 0x2B8CBCCC#32) = _
    rw [shapeCast_self, mix_apply]
    rfl
  · show Ideal.log (Ideal.ofBits .f32 0x3F800000#32 - min (Ideal.ofBits .f32 0x3F7FFFEF#32) (max (Ideal.ofBits .f32 0x358637BD#32)
        (matmul dot_S10x10_S8192x10_S10x8192_1_1_0_0_n_n (some .fp32) (shapeCast S10x10 x3 shapeCasts_S10x10_S10x10) x1 (constant (F := Ideal) S10x8192 .f32 0x00000000#32) (ix2 j n)))
        + Ideal.ofBits .f32 0x2B8CBCCC#32) = _
    rw [shapeCast_self, mix_apply]
    rfl

/-! ## The second term: the normalized smooth disjunctions of a column -/

/-- A sum down the 19 rows of a 19 × 8192 array, read at column `n`. -/
theorem colSum_apply (src : FVec Ideal S19x8192 .f32) (hφ : FKind.Formats .f32)
    (hacc : (0x00000000#32 : BitVec 32) = 0x00000000#32) (n : Fin 8192) :
    multiReduction .add [0] S8192 src 0x00000000#32 reduces_S19x8192_S8192 hφ hacc (ix1 n) = ∑ k : Fin 19, src (ix2 k n) := by
  refine (Ideal.multiReduction_add_single src 0x00000000#32 reduces_S19x8192_S8192 hφ hacc (ix1 n)).trans ?_
  refine Finset.sum_congr rfl fun k _ => congrArg src ?_
  funext c; apply Fin.ext
  match c with
  | ⟨0, _⟩ => rfl
  | ⟨1, _⟩ => rfl

/-- Dividing each entry by its column's sum plus a constant: the sum is taken down the rows, reshaped to one
    row, shifted, and broadcast back over the rows. -/
theorem normalize_apply (Y : FVec Ideal S19x8192 .f32) (hφ : FKind.Formats .f32)
    (hacc : (0x00000000#32 : BitVec 32) = 0x00000000#32) (k : Fin 19) (n : Fin 8192) :
    divf Y (broadcastTo S19x8192 (addf (shapeCast S1x8192 (multiReduction .add [0] S8192 Y 0x00000000#32 reduces_S19x8192_S8192 hφ hacc)
        shapeCasts_S8192_S1x8192) (broadcast S1x8192 (Scalar.ofBits (F := Ideal) .f32 0x3089705F#32))) broadcasts_S1x8192_S19x8192) (ix2 k n)
      = Ideal.div (Y (ix2 k n)) ((∑ k' : Fin 19, Y (ix2 k' n)) + Ideal.ofBits .f32 0x3089705F#32) := by
  show Ideal.div (Y (ix2 k n)) (broadcastTo S19x8192 _ broadcasts_S1x8192_S19x8192 (ix2 k n)) = _
  rw [broadcastTo_1b_ab_apply]
  show Ideal.div (Y (ix2 k n)) (shapeCast S1x8192 _ shapeCasts_S8192_S1x8192 (ix2 (0 : Fin 1) n) + Ideal.ofBits .f32 0x3089705F#32) = _
  rw [shapeCast_a_1a_apply, colSum_apply]

/-- One minus the exponential of the table's product with the cells. -/
def yArr (x6 : FVec Ideal S19x100 .f32) (s : FVec Ideal S100x8192 .f32) : FVec Ideal S19x8192 .f32 :=
  subf (broadcast S19x8192 (Scalar.ofBits (F := Ideal) .f32 0x3F800000#32))
    (exp (matmul dot_S19x100_S100x8192_S19x8192_1_0_0_1_n_n (some .fp32) x6 s (constant (F := Ideal) S19x8192 .f32 0x00000000#32)))

theorem yArr_apply (x6 : FVec Ideal S19x100 .f32) (s : FVec Ideal S100x8192 .f32) (k : Fin 19) (n : Fin 8192) :
    yArr x6 s (ix2 k n) = Ideal.ofBits .f32 0x3F800000#32 - Ideal.exp (∑ c : Fin 100, x6 (ix2 k c) * s (ix2 c n)) := by
  show Ideal.ofBits .f32 0x3F800000#32 - Ideal.exp (matmul dot_S19x100_S100x8192_S19x8192_1_0_0_1_n_n (some .fp32) x6 s (constant (F := Ideal) S19x8192 .f32 0x00000000#32) (ix2 k n)) = _
  rw [diag_apply]

/-- The second term at anti-diagonal `k` and column `n`. -/
theorem pay1_apply (x6 : FVec Ideal S19x100 .f32) (s : FVec Ideal S100x8192 .f32) (k : Fin 19) (n : Fin 8192) :
    k0_pay1 x6 s (constant (F := Ideal) S19x8192 .f32 0x00000000#32) (ix2 k n)
      = Ideal.div (yArr x6 s (ix2 k n)) ((∑ k' : Fin 19, yArr x6 s (ix2 k' n)) + Ideal.ofBits .f32 0x3089705F#32) := by
  unfold k0_pay1
  exact normalize_apply (yArr x6 s) _ _ k n

/-! ## The whole body at an entry -/

/-- With the three tables the selectors, the body's result at anti-diagonal `k` and column `n` of the block is
    the row specification's output for that column's rows of the two inputs. -/
theorem body_apply (x0 x1 : Vec Ideal S8192x10 .f32) (x2 x3 : Vec Ideal S10x10 .f32) (x4 x5 : Vec Ideal S100x10 .f32)
    (x6 : FVec Ideal S19x100 .f32)
    (hE1 : ∀ (c : Fin 100) (i : Fin 10), x4 (ix2 c i) = if i = rowOf c then 1 else 0)
    (hE2 : ∀ (c : Fin 100) (j : Fin 10), x5 (ix2 c j) = if j = colOf c then 1 else 0)
    (hM : ∀ (k : Fin 19) (c : Fin 100), x6 (ix2 k c) = onDiag c k)
    (k : Fin 19) (n : Fin 8192) :
    k0_pay1 x6 (k0_pay2 x0 x1 x2 x3 x4 x5) (constant (F := Ideal) S19x8192 .f32 0x00000000#32) (ix2 k n)
      = out (fun i k => x2 (ix2 i k)) (fun j k => x3 (ix2 j k)) (fun k => x0 (ix2 n k)) (fun k => x1 (ix2 n k)) k := by
  rw [pay1_apply]
  simp only [yArr_apply, pay2_apply x0 x1 x2 x3 x4 x5 hE1 hE2, hM]
  rfl

end Cert.KernelRow

end
-- ==== Proof.ArraySpec.lean ====
/-
  The result as ONE function of the four argument arrays.

  Entry `(n, k)` of the batch-major result is the row specification's output `k` for row `n` of the two batch
  inputs and the two 10 × 10 mixing matrices; the kernel fills the same numbers into a 19 × 262144 array, entry
  `(k, n)`, which the program then transposes.
-/
import proofs.«136630_j52192442581023_2_alg».proof.Proof.RowSpec
import Idealize.ShloMosaic.Lib.ValueIdx

noncomputable section

namespace Cert.ArraySpec

open Idealize.ShloMosaic Idealize.ShloMosaic.ValueIdx Cert.RowSpec

/-- A 10 × 10 array as a matrix, a 262144 × 10 array's row `n` as a vector. -/
def mat (P : (⟨2, ![10, 10]⟩ : Shape).Idx → EReal) : Fin 10 → Fin 10 → EReal := fun i k => P (ix2 i k)
def rowAt (p : (⟨2, ![262144, 10]⟩ : Shape).Idx → EReal) (n : Fin 262144) : Fin 10 → EReal := fun k => p (ix2 n k)

/-- Output `k` of batch row `n`. -/
def outAt (P1 P2 : (⟨2, ![10, 10]⟩ : Shape).Idx → EReal) (p1 p2 : (⟨2, ![262144, 10]⟩ : Shape).Idx → EReal)
    (n : Fin 262144) (k : Fin 19) : EReal :=
  out (mat P1) (mat P2) (rowAt p1 n) (rowAt p2 n) k

/-- The batch-major result, 262144 × 19. -/
def result (P1 P2 : (⟨2, ![10, 10]⟩ : Shape).Idx → EReal) (p1 p2 : (⟨2, ![262144, 10]⟩ : Shape).Idx → EReal) :
    (⟨2, ![262144, 19]⟩ : Shape).Idx → EReal :=
  fun i => outAt P1 P2 p1 p2 ⟨(i 0).val, (i 0).isLt⟩ ⟨(i 1).val, (i 1).isLt⟩

/-- The same numbers with the batch on the second axis, 19 × 262144. -/
def resultT (P1 P2 : (⟨2, ![10, 10]⟩ : Shape).Idx → EReal) (p1 p2 : (⟨2, ![262144, 10]⟩ : Shape).Idx → EReal) :
    (⟨2, ![19, 262144]⟩ : Shape).Idx → EReal :=
  fun i => outAt P1 P2 p1 p2 ⟨(i 1).val, (i 1).isLt⟩ ⟨(i 0).val, (i 0).isLt⟩

end Cert.ArraySpec

end
-- ==== Proof.KernelArray.lean ====
/-
  From the kernel's blocks to its whole output array, and through the transposition after the launch.

  The launch has 32 points. At point `t` the two batch inputs are staged 8192 rows at a time (rows
  `8192·t … 8192·t + 8191`), the two mixing matrices and the three constant tables whole, and the output block is
  columns `8192·t … 8192·t + 8191` of the 19 × 262144 array. The mixing matrices are computed before the launch by
  the same operations, on the same weight arrays, as the reference's; the constant tables hold the selector
  entries. So the block written at point `t` is that block of the lane-major specification; the 32 blocks tile
  the array; and the transposition that follows gives the batch-major specification.
-/
import proofs.«136630_j52192442581023_2_alg».proof.Proof.Gen.KernelIdeal.Frame
import proofs.«136630_j52192442581023_2_alg».proof.Proof.Gen.ReferenceIdeal.Read
import proofs.«136630_j52192442581023_2_alg».proof.Proof.Tables
import proofs.«136630_j52192442581023_2_alg».proof.Proof.KernelRow
import proofs.«136630_j52192442581023_2_alg».proof.Proof.ArraySpec
import Idealize.ShloMosaic.Lib.Pipeline.Value
import Idealize.ShloMosaic.Lib.ValueLayout
import Idealize.ShloMosaic.Lib.StableHlo.Run

set_option maxRecDepth 16384

noncomputable section

namespace Cert.KernelArray

open Cert.KernelIdeal Cert.KernelIdeal.Gen Idealize.ShloMosaic Idealize.ShloMosaic.TcCoe Idealize.ShloMosaic.ValueIdx
open Idealize.SL Idealize.SL.Sem Idealize.ShloMosaic.StableHlo
open Idealize.ShloMosaic.Pipeline (Dat Cfg Window)
open Cert.RowSpec Cert.ArraySpec Cert.LibLogClamp

variable (m : (ℓ : Loc nD τ sig) → Buf (Elt Ideal) ℓ) (ρ : Dev nD → PrngReg)

/-- The two mixing matrices: the normalized weight arrays, named by the stages of the reference that compute them. -/
abbrev P1 (c : Dev nD) : (⟨2, ![10, 10]⟩ : Shape).Idx → EReal :=
  Cert.ReferenceIdeal.Read.val_main_v16 (F := Ideal) (m ((c : Thread nD τ).loc main_arg2))
abbrev P2 (c : Dev nD) : (⟨2, ![10, 10]⟩ : Shape).Idx → EReal :=
  Cert.ReferenceIdeal.Read.val_main_v35 (F := Ideal) (m ((c : Thread nD τ).loc main_arg3))

/-! ## What the operations before the launch leave -/

theorem V_tab0 (c : Dev nD) :
    (V m c main_cst : S100x10.Idx → EReal) = fun i => Ideal.ofBits .f32 (lit0 (S100x10.rowMajor i)) := by
  show StableHlo.after hostOps0 (fun b => m (c, b)) (Proc.devRef .tc main_cst) = _
  after_results
  rfl

theorem V_tab1 (c : Dev nD) :
    (V m c main_cst_0 : S100x10.Idx → EReal) = fun i => Ideal.ofBits .f32 (lit1 (S100x10.rowMajor i)) := by
  show StableHlo.after hostOps0 (fun b => m (c, b)) (Proc.devRef .tc main_cst_0) = _
  after_results
  rfl

theorem V_tab2 (c : Dev nD) :
    (V m c main_cst_1 : S19x100.Idx → EReal) = fun i => Ideal.ofBits .f32 (lit2 (S19x100.rowMajor i)) := by
  show StableHlo.after hostOps0 (fun b => m (c, b)) (Proc.devRef .tc main_cst_1) = _
  after_results
  rfl

set_option maxHeartbeats 4000000 in
theorem V_P1 (c : Dev nD) : (V m c main_v16 : S10x10.Idx → EReal) = P1 m c := by
  show StableHlo.after hostOps0 (fun b => m (c, b)) (Proc.devRef .tc main_v16) = _
  after_results_simp
  rfl

set_option maxHeartbeats 4000000 in
theorem V_P2 (c : Dev nD) : (V m c main_v33 : S10x10.Idx → EReal) = P2 m c := by
  show StableHlo.after hostOps0 (fun b => m (c, b)) (Proc.devRef .tc main_v33) = _
  after_results_simp
  rfl

/-! ## The index maps, decided over the 32 points -/

theorem hz : (![0, 0] : Fin 2 → Nat) = fun _ => 0 := funext fun a => by fin_cases a <;> rfl

theorem idx_facts : ∀ t : Fin cfg0.N,
    win0_0.index t (0 : Fin 2) = win0_7.index t (1 : Fin 2) ∧ win0_0.index t (1 : Fin 2) = 0
    ∧ win0_1.index t (0 : Fin 2) = win0_7.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) ≤ 31 :=
  (by decide +kernel : ∀ t : Fin grid0.N, _)

theorem idx_onto : ∀ q : Fin 32, ∃ t : Fin cfg0.N, win0_7.index t = ![0, q.val] :=
  (by decide +kernel : ∀ q : Fin 32, ∃ t : Fin grid0.N, win0_7.index t = ![0, q.val])

/-! ## The input blocks at a point -/

/-- Row `n` of the first input's block at point `t` is row `8192·t + n` of the input. -/
theorem blk0 (c : Dev nD) (t : Fin cfg0.N) (n : Fin 8192) (k : Fin 10) (N : Fin 262144)
    (hN : N.val = win0_7.index t (1 : Fin 2) * 8192 + n.val) :
    (iblk m c 0 t : Vec Ideal S8192x10 .f32) (ix2 n k) = m ((c : Thread nD τ).loc main_arg0) (ix2 N k) := by
  obtain ⟨e0, e1, -⟩ := idx_facts t
  show V m c main_arg0 (((cfg0.win 0).blk t).view.emb (ix2 n k)) = _
  rw [V_main_arg0]
  refine congrArg _ (funext fun a => Fin.ext ?_)
  match a with
  | ⟨0, _⟩ => show win0_0.index t (0 : Fin 2) * 8192 + 1 * n.val = N.val; omega
  | ⟨1, _⟩ => show win0_0.index t (1 : Fin 2) * 10 + 1 * k.val = k.val; omega

theorem blk1 (c : Dev nD) (t : Fin cfg0.N) (n : Fin 8192) (k : Fin 10) (N : Fin 262144)
    (hN : N.val = win0_7.index t (1 : Fin 2) * 8192 + n.val) :
    (iblk m c 1 t : Vec Ideal S8192x10 .f32) (ix2 n k) = m ((c : Thread nD τ).loc main_arg1) (ix2 N k) := by
  obtain ⟨-, -, e0, e1, -⟩ := idx_facts t
  show V m c main_arg1 (((cfg0.win 1).blk t).view.emb (ix2 n k)) = _
  rw [V_main_arg1]
  refine congrArg _ (funext fun a => Fin.ext ?_)
  match a with
  | ⟨0, _⟩ => show win0_1.index t (0 : Fin 2) * 8192 + 1 * n.val = N.val; omega
  | ⟨1, _⟩ => show win0_1.index t (1 : Fin 2) * 10 + 1 * k.val = k.val; omega

/-- Window 2 stages its whole array: entry `(p, q)` of its block is entry `(p, q)` of the array. -/
theorem blk2 (c : Dev nD) (t : Fin cfg0.N) (p : Fin 10) (q : Fin 10) :
    (iblk m c 2 t : Vec Ideal S10x10 .f32) (ix2 p q) = (V m c main_v16 : S10x10.Idx → EReal) (ix2 p q) := by
  obtain ⟨-, -, -, -, z20, z21, z30, z31, z40, z41, z50, z51, z60, z61, -, -⟩ := idx_facts t
  show V m c main_v16 (((cfg0.win 2).blk t).view.emb (ix2 p q)) = _
  refine congrArg _ (funext fun a => Fin.ext ?_)
  match a with
  | ⟨0, _⟩ => show win0_2.index t (0 : Fin 2) * 10 + 1 * p.val = p.val; omega
  | ⟨1, _⟩ => show win0_2.index t (1 : Fin 2) * 10 + 1 * q.val = q.val; omega

/-- Window 3 stages its whole array: entry `(p, q)` of its block is entry `(p, q)` of the array. -/
theorem blk3 (c : Dev nD) (t : Fin cfg0.N) (p : Fin 10) (q : Fin 10) :
    (iblk m c 3 t : Vec Ideal S10x10 .f32) (ix2 p q) = (V m c main_v33 : S10x10.Idx → EReal) (ix2 p q) := by
  obtain ⟨-, -, -, -, z20, z21, z30, z31, z40, z41, z50, z51, z60, z61, -, -⟩ := idx_facts t
  show V m c main_v33 (((cfg0.win 3).blk t).view.emb (ix2 p q)) = _
  refine congrArg _ (funext fun a => Fin.ext ?_)
  match a with
  | ⟨0, _⟩ => show win0_3.index t (0 : Fin 2) * 10 + 1 * p.val = p.val; omega
  | ⟨1, _⟩ => show win0_3.index t (1 : Fin 2) * 10 + 1 * q.val = q.val; omega

/-- Window 4 stages its whole array: entry `(p, q)` of its block is entry `(p, q)` of the array. -/
theorem blk4 (c : Dev nD) (t : Fin cfg0.N) (p : Fin 100) (q : Fin 10) :
    (iblk m c 4 t : Vec Ideal S100x10 .f32) (ix2 p q) = (V m c main_cst : S100x10.Idx → EReal) (ix2 p q) := by
  obtain ⟨-, -, -, -, z20, z21, z30, z31, z40, z41, z50, z51, z60, z61, -, -⟩ := idx_facts t
  show V m c main_cst (((cfg0.win 4).blk t).view.emb (ix2 p q)) = _
  refine congrArg _ (funext fun a => Fin.ext ?_)
  match a with
  | ⟨0, _⟩ => show win0_4.index t (0 : Fin 2) * 100 + 1 * p.val = p.val; omega
  | ⟨1, _⟩ => show win0_4.index t (1 : Fin 2) * 10 + 1 * q.val = q.val; omega

/-- Window 5 stages its whole array: entry `(p, q)` of its block is entry `(p, q)` of the array. -/
theorem blk5 (c : Dev nD) (t : Fin cfg0.N) (p : Fin 100) (q : Fin 10) :
    (iblk m c 5 t : Vec Ideal S100x10 .f32) (ix2 p q) = (V m c main_cst_0 : S100x10.Idx → EReal) (ix2 p q) := by
  obtain ⟨-, -, -, -, z20, z21, z30, z31, z40, z41, z50, z51, z60, z61, -, -⟩ := idx_facts t
  show V m c main_cst_0 (((cfg0.win 5).blk t).view.emb (ix2 p q)) = _
  refine congrArg _ (funext fun a => Fin.ext ?_)
  match a with
  | ⟨0, _⟩ => show win0_5.index t (0 : Fin 2) * 100 + 1 * p.val = p.val; omega
  | ⟨1, _⟩ => show win0_5.index t (1 : Fin 2) * 10 + 1 * q.val = q.val; omega

/-- Window 6 stages its whole array: entry `(p, q)` of its block is entry `(p, q)` of the array. -/
theorem blk6 (c : Dev nD) (t : Fin cfg0.N) (p : Fin 19) (q : Fin 100) :
    (iblk m c 6 t : Vec Ideal S19x100 .f32) (ix2 p q) = (V m c main_cst_1 : S19x100.Idx → EReal) (ix2 p q) := by
  obtain ⟨-, -, -, -, z20, z21, z30, z31, z40, z41, z50, z51, z60, z61, -, -⟩ := idx_facts t
  show V m c main_cst_1 (((cfg0.win 6).blk t).view.emb (ix2 p q)) = _
  refine congrArg _ (funext fun a => Fin.ext ?_)
  match a with
  | ⟨0, _⟩ => show win0_6.index t (0 : Fin 2) * 19 + 1 * p.val = p.val; omega
  | ⟨1, _⟩ => show win0_6.index t (1 : Fin 2) * 100 + 1 * q.val = q.val; omega

/-! ## The three tables are the selectors -/

theorem tab4 (c : Dev nD) (t : Fin cfg0.N) (c' : Fin 100) (i : Fin 10) :
    (iblk m c 4 t : Vec Ideal S100x10 .f32) (ix2 c' i) = (if i = rowOf c' then (1 : EReal) else 0) := by
  rw [blk4, V_tab0]
  show Ideal.ofBits .f32 (lit0t (S100x10.rowMajor (ix2 c' i)).val) = _
  rw [Shape.rowMajor_val_two]
  show Ideal.ofBits .f32 (lit0t (c'.val * 10 + i.val)) = _
  rw [Cert.Tables.rowSel c' i]
  by_cases h : i.val = c'.val / 10
  · rw [if_pos h, if_pos (Fin.ext h), ofBits_one_f32]
  · rw [if_neg h, if_neg (fun e => h (congrArg Fin.val e)), Ideal.ofBits_zero_f32]

theorem tab5 (c : Dev nD) (t : Fin cfg0.N) (c' : Fin 100) (j : Fin 10) :
    (iblk m c 5 t : Vec Ideal S100x10 .f32) (ix2 c' j) = (if j = colOf c' then (1 : EReal) else 0) := by
  rw [blk5, V_tab1]
  show Ideal.ofBits .f32 (lit1t (S100x10.rowMajor (ix2 c' j)).val) = _
  rw [Shape.rowMajor_val_two]
  show Ideal.ofBits .f32 (lit1t (c'.val * 10 + j.val)) = _
  rw [Cert.Tables.colSel c' j]
  by_cases h : j.val = c'.val % 10
  · rw [if_pos h, if_pos (Fin.ext h), ofBits_one_f32]
  · rw [if_neg h, if_neg (fun e => h (congrArg Fin.val e)), Ideal.ofBits_zero_f32]

theorem tab6 (c : Dev nD) (t : Fin cfg0.N) (k : Fin 19) (c' : Fin 100) :
    (iblk m c 6 t : Vec Ideal S19x100 .f32) (ix2 k c') = onDiag c' k := by
  rw [blk6, V_tab2]
  show Ideal.ofBits .f32 (lit2t (S19x100.rowMajor (ix2 k c')).val) = _
  rw [Shape.rowMajor_val_two]
  show Ideal.ofBits .f32 (lit2t (k.val * 100 + c'.val)) = _
  rw [Cert.Tables.diagSel k c']
  unfold onDiag
  by_cases h : c'.val / 10 + c'.val % 10 = k.val
  · rw [if_pos h, if_pos h, ofBits_one_f32]
  · rw [if_neg h, if_neg h, Ideal.ofBits_zero_f32]

end Cert.KernelArray

end
-- ==== Proof.KernelRun.lean ====
/-
  The kernel program's run, with its result named.

  What point `t` writes back is block `t` of the lane-major specification: entry `(k, n)` of the block is the
  body's result for the point's input blocks, which is the row specification's output `k` for row `8192·t + n` of
  the two inputs. The 32 blocks tile the 19 × 262144 array (column `q` lies in block `q / 8192`), so after the
  launch the array is the lane-major specification, and the transposition that follows reads, at `(n, k)`, its
  entry `(k, n)`: the batch-major specification.
-/
import proofs.«136630_j52192442581023_2_alg».proof.Proof.KernelArray

set_option maxRecDepth 16384

noncomputable section

namespace Cert.KernelRun

open Cert.KernelIdeal Cert.KernelIdeal.Gen Idealize.ShloMosaic Idealize.ShloMosaic.TcCoe Idealize.ShloMosaic.ValueIdx
open Idealize.SL Idealize.SL.Sem Idealize.ShloMosaic.StableHlo
open Idealize.ShloMosaic.Pipeline (Dat Cfg Window)
open Cert.RowSpec Cert.ArraySpec Cert.KernelArray

variable (m : (ℓ : Loc nD τ sig) → Buf (Elt Ideal) ℓ) (ρ : Dev nD → PrngReg)

/-- The lane-major specification of the arrays as launched. -/
abbrev specT (c : Dev nD) : (⟨2, ![19, 262144]⟩ : Shape).Idx → EReal :=
  resultT (P1 m c) (P2 m c) (m ((c : Thread nD τ).loc main_arg0)) (m ((c : Thread nD τ).loc main_arg1))

/-- The batch-major specification. -/
abbrev spec (c : Dev nD) : (⟨2, ![262144, 19]⟩ : Shape).Idx → EReal :=
  result (P1 m c) (P2 m c) (m ((c : Thread nD τ).loc main_arg0)) (m ((c : Thread nD τ).loc main_arg1))

/-! ## What a point writes back -/

/-- The body's result at a point, entry by entry, is the specification's row output. -/
theorem point_apply (c : Dev nD) (t : Fin cfg0.N) (k : Fin 19) (n : Fin 8192) (K : Fin 19) (N : Fin 262144)
    (hK : K.val = k.val) (hN : N.val = win0_7.index t (1 : Fin 2) * 8192 + n.val) :
    k0_pay1 (iblk m c 6 t) (k0_pay2 (iblk m c 0 t) (iblk m c 1 t) (iblk m c 2 t) (iblk m c 3 t) (iblk m c 4 t) (iblk m c 5 t))
        (constant (F := Ideal) S19x8192 .f32 0x00000000#32) (ix2 k n)
      = outAt (P1 m c) (P2 m c) (m ((c : Thread nD τ).loc main_arg0)) (m ((c : Thread nD τ).loc main_arg1)) N K := by
  obtain rfl : K = k := Fin.ext hK
  refine (Cert.KernelRow.body_apply (iblk m c 0 t) (iblk m c 1 t) (iblk m c 2 t) (iblk m c 3 t) (iblk m c 4 t) (iblk m c 5 t)
    (iblk m c 6 t) (tab4 m c t) (tab5 m c t) (tab6 m c t) K n).trans ?_
  have hA : (fun (i k' : Fin 10) => (iblk m c 2 t : Vec Ideal S10x10 .f32) (ix2 i k')) = mat (P1 m c) :=
    funext fun i => funext fun k' => (blk2 m c t i k').trans (congrFun (V_P1 m c) (ix2 i k'))
  have hB : (fun (j k' : Fin 10) => (iblk m c 3 t : Vec Ideal S10x10 .f32) (ix2 j k')) = mat (P2 m c) :=
    funext fun j => funext fun k' => (blk3 m c t j k').trans (congrFun (V_P2 m c) (ix2 j k'))
  have ha : (fun k' : Fin 10 => (iblk m c 0 t : Vec Ideal S8192x10 .f32) (ix2 n k')) = rowAt (m ((c : Thread nD τ).loc main_arg0)) N :=
    funext fun k' => blk0 m c t n k' N hN
  have hb : (fun k' : Fin 10 => (iblk m c 1 t : Vec Ideal S8192x10 .f32) (ix2 n k')) = rowAt (m ((c : Thread nD τ).loc main_arg1)) N :=
    funext fun k' => blk1 m c t n k' N hN
  unfold outAt
  rw [← hA, ← hB, ← ha, ← hb]

/-- WHAT POINT `t` WRITES BACK is block `t` of the lane-major specification. -/
theorem flushed_eq (c : Dev nD) (t : Fin cfg0.N) :
    (dats m 0 c).flushed 7 t = ((cfg0.win 7).blk t).view.read (Elt Ideal) (specT m c) := by
  show (cfg0.win 7).cut (grid0.coords t) ((dats m 0 c).after 7 t) = _
  rw [after0_7]
  unfold out0_7
  rw [View.canon_unit_zero hz]
  simp only [View.ld_unit_zero (S := S8192x10) hz, View.ld_unit_zero (S := S10x10) hz, View.ld_unit_zero (S := S100x10) hz,
    View.ld_unit_zero (S := S19x100) hz]
  obtain ⟨-, -, -, -, -, -, -, -, -, -, -, -, -, -, z70, -⟩ := idx_facts t
  funext y
  obtain ⟨k, n, rfl⟩ : ∃ (k : Fin 19) (n : Fin 8192), y = ix2 k n := ⟨y 0, y 1, eq_ix2 y⟩
  show k0_pay1 (iblk m c 6 t) (k0_pay2 (iblk m c 0 t) (iblk m c 1 t) (iblk m c 2 t) (iblk m c 3 t) (iblk m c 4 t) (iblk m c 5 t))
        (constant (F := Ideal) S19x8192 .f32 0x00000000#32) (ix2 k n)
      = specT m c (((cfg0.win 7).blk t).view.emb (ix2 k n))
  unfold specT resultT
  exact point_apply m c t k n _ _
    (by show win0_7.index t (0 : Fin 2) * 19 + 1 * k.val = k.val; omega)
    (by show win0_7.index t (1 : Fin 2) * 8192 + 1 * n.val = win0_7.index t (1 : Fin 2) * 8192 + n.val; omega)

/-! ## The blocks tile the array -/

theorem mem_blk (t : Fin cfg0.N) (i : S19x262144.Idx) :
    i ∈ ((cfg0.win 7).blk t).view.set ↔ ∀ a : Fin 2, win0_7.index t a * S19x8192.size a ≤ (i a).val
      ∧ (i a).val < win0_7.index t a * S19x8192.size a + S19x8192.size a := by
  show i ∈ ((View.whole main_v34).slice (win0_7.rect t)).set ↔ _
  rw [View.set_slice_whole, Rect.mem_set_unit]
  exact Iff.rfl

theorem cover (i : S19x262144.Idx) :
    ∃ t : Fin cfg0.N, (cfg0.win 7).flush t = true ∧ i ∈ ((cfg0.win 7).blk t).view.set := by
  have hi0 : (i 0).val < 19 := (i 0).isLt
  have hi1 : (i 1).val < 262144 := (i 1).isLt
  obtain ⟨t, ht⟩ := idx_onto ⟨(i 1).val / 8192, by omega⟩
  have q0 : win0_7.index t (0 : Fin 2) = 0 := congrFun ht 0
  have q1 : win0_7.index t (1 : Fin 2) = (i 1).val / 8192 := congrFun ht 1
  refine ⟨t, flush0_7 t, ?_⟩
  rw [mem_blk]
  intro a
  match a with
  | ⟨0, _⟩ => show win0_7.index t (0 : Fin 2) * 19 ≤ (i 0).val ∧ (i 0).val < win0_7.index t (0 : Fin 2) * 19 + 19; omega
  | ⟨1, _⟩ => show win0_7.index t (1 : Fin 2) * 8192 ≤ (i 1).val ∧ (i 1).val < win0_7.index t (1 : Fin 2) * 8192 + 8192; omega

/-- THE ARRAY after the launch is the lane-major specification. -/
theorem final (c : Dev nD) : (dats m 0 c).arrAt 7 cfg0.N = specT m c :=
  (dats m 0 c).arrAt_eq_of_cover 7 (specT m c) (fun t _ => flushed_eq m c t) cover

/-! ## The transposition after the launch -/

theorem tail_eq (c : Dev nD) :
    Pipeline.afterTail₀ cfgs (dats m) 0 (V0 m) [hostOps1] c main_v35 = spec m c := by
  unfold Pipeline.afterTail₀
  show StableHlo.after hostOps1 _ (Proc.devRef .tc main_v35) = _
  after_results
  rw [(Pipeline.withArrays_arr spec0 launch0.win.arr_inj c _ _ 7).trans (final m c)]
  funext i
  obtain ⟨n, k, rfl⟩ : ∃ (n : Fin 262144) (k : Fin 19), i = ix2 n k := ⟨i 0, i 1, eq_ix2 i⟩
  rw [transpose_ix2_apply]
  rfl

/-! ## The run -/

/-- Every weakly fair execution of the kernel program terminates with its result at the batch-major
    specification and its arguments unchanged. -/
theorem run : θ_run defs (onTc (τ := τ) (main (F := Ideal))) ⟨m, fun _ => 0, ρ⟩ fun r => ∀ c : Dev nD,
      r.2.mem ((c.tc : Thread nD τ).loc main_v35) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v35 (Pipeline.mem_restRefs_of main_v35 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelRun

end
-- ==== Proof.RefRow.lean ====
/-
  The reference program read at an entry: it is the row specification.

  Entry `(n, i)` of each mixed input is `Σ_k p (n, k) · P (i, k)` (the product with the transposed matrix), the
  same sum as the specification's with the factors exchanged. The 262144 × 10 × 10 array of clamped
  complement-logarithms of pairwise minima, flattened to 262144 × 100, has at `(n, c)` the cell of pair
  `c = 10·i + j`; the one-hot table built from `i + j` has at `(c, k)` one exactly on anti-diagonal `k`; their
  product is the specification's sum over the pairs, and the normalization is the specification's.
-/
import proofs.«136630_j52192442581023_2_alg».proof.Proof.Gen.ReferenceIdeal.Read
import proofs.«136630_j52192442581023_2_alg».proof.Proof.ArraySpec
import Idealize.ShloMosaic.Lib.ValueIdx
import Idealize.ShloMosaic.PureOps.Ideal.Laws

noncomputable section

namespace Cert.RefRow

open Cert.ReferenceIdeal Cert.ReferenceIdeal.Read Idealize.ShloMosaic Idealize.ShloMosaic.ValueIdx Cert.RowSpec Cert.ArraySpec
open scoped BigOperators

variable (x0 x1 : (⟨S262144x10, .f32⟩ : BufTy).Contents (Elt Ideal)) (x2 x3 : (⟨S10x10, .f32⟩ : BufTy).Contents (Elt Ideal))

/-! ## The two mixed inputs -/

theorem mix1_apply (n : Fin 262144) (i : Fin 10) :
    val_main_v18 (F := Ideal) x0 x2 (ix2 n i) = lin (mat (val_main_v16 (F := Ideal) x2)) (rowAt x0 n) i := by
  rw [val_main_v18_apply]
  refine Finset.sum_congr rfl fun k _ => ?_
  rw [val_main_v17_apply]
  have el : lidx_main_v18 (ix2 n i) k = ix2 n k := funext fun a => Fin.ext (by match a with | ⟨0, _⟩ => rfl | ⟨1, _⟩ => rfl)
  have er : idx_main_v17 (ridx_main_v18 (ix2 n i) k) = ix2 i k := funext fun a => Fin.ext (by match a with | ⟨0, _⟩ => rfl | ⟨1, _⟩ => rfl)
  rw [el, er]
  exact mul_comm _ _

theorem mix2_apply (n : Fin 262144) (j : Fin 10) :
    val_main_v37 (F := Ideal) x1 x3 (ix2 n j) = lin (mat (val_main_v35 (F := Ideal) x3)) (rowAt x1 n) j := by
  rw [val_main_v37_apply]
  refine Finset.sum_congr rfl fun k _ => ?_
  rw [val_main_v36_apply]
  have el : lidx_main_v37 (ix2 n j) k = ix2 n k := funext fun a => Fin.ext (by match a with | ⟨0, _⟩ => rfl | ⟨1, _⟩ => rfl)
  have er : idx_main_v36 (ridx_main_v37 (ix2 n j) k) = ix2 j k := funext fun a => Fin.ext (by match a with | ⟨0, _⟩ => rfl | ⟨1, _⟩ => rfl)
  rw [el, er]
  exact mul_comm _ _

/-- The first mixed input spread over the pairs: at `(n, i, j)` it is entry `(n, i)`. -/
theorem left_apply (n : Fin 262144) (i j : Fin 10) :
    val_main_v40 (F := Ideal) x0 x2 (ix3 n i j) = lin (mat (val_main_v16 (F := Ideal) x2)) (rowAt x0 n) i := by
  rw [val_main_v40_apply, val_main_v38_apply]
  have e : idx_main_v38 (idx_main_v40 (ix3 n i j)) = ix2 n i := funext fun a => Fin.ext (by match a with | ⟨0, _⟩ => rfl | ⟨1, _⟩ => rfl)
  rw [e, mix1_apply]

/-- The second: at `(n, i, j)` it is entry `(n, j)`. -/
theorem right_apply (n : Fin 262144) (i j : Fin 10) :
    val_main_v41 (F := Ideal) x1 x3 (ix3 n i j) = lin (mat (val_main_v35 (F := Ideal) x3)) (rowAt x1 n) j := by
  rw [val_main_v41_apply, val_main_v39_apply]
  have e : idx_main_v39 (idx_main_v41 (ix3 n i j)) = ix2 n j := funext fun a => Fin.ext (by match a with | ⟨0, _⟩ => rfl | ⟨1, _⟩ => rfl)
  rw [e, mix2_apply]

/-! ## The cells -/

theorem cell_apply (n : Fin 262144) (c : Fin 100) :
    val_main_v58 (F := Ideal) x0 x1 x2 x3 (ix2 n c)
      = cell (mat (val_main_v16 (F := Ideal) x2)) (mat (val_main_v35 (F := Ideal) x3)) (rowAt x0 n) (rowAt x1 n) c := by
  rw [val_main_v58_apply]
  have e : idx_main_v58 (ix2 n c) = ix3 n (rowOf c) (colOf c) := funext fun a => Fin.ext (by
    have hn := n.isLt; have hc := c.isLt
    match a with
    | ⟨0, _⟩ => show (n.val * 100 + c.val) / 100 = n.val; omega
    | ⟨1, _⟩ => show (n.val * 100 + c.val) / 10 % 10 = c.val / 10; omega
    | ⟨2, _⟩ => show (n.val * 100 + c.val) % 10 = c.val % 10; omega)
  rw [e, val_main_v48_apply, val_main_v47_apply, val_main_v45_apply, val_main_v43_apply, val_main_call0_v2_apply,
    val_main_v42_apply, left_apply, right_apply]
  rfl

/-! ## The one-hot table -/

theorem sum_eq_fact : ∀ (c : Fin 100) (k : Fin 19),
    IntOp.cmpi .eq (IntOp.addi (BitVec.ofNat 32 (c.val / 10)) (BitVec.ofNat 32 (c.val % 10))) (BitVec.ofNat 32 k.val)
      = if c.val / 10 + c.val % 10 = k.val then 1#1 else 0#1 := by decide +kernel

theorem onehot_apply (c : Fin 100) (k : Fin 19) : val_main_v57 (F := Ideal) (ix2 c k) = onDiag c k := by
  rw [val_main_v57_apply, val_main_call1_v4_apply, val_main_call1_v2_apply, val_main_call1_v0_apply, val_main_v56_apply,
    val_main_v55_apply, val_main_v53_apply, val_main_v50_apply, val_main_v49_apply, val_main_v54_apply, val_main_v52_apply,
    val_main_v51_apply, val_main_call1_v3_apply, val_main_call1_v1_apply]
  show (((IntOp.cmpi .eq (IntOp.addi (BitVec.ofNat 32 (c.val / 10)) (BitVec.ofNat 32 (c.val % 10))) (BitVec.ofNat 32 k.val)).toNat : ℝ) : EReal) = _
  rw [sum_eq_fact c k]
  unfold onDiag
  split <;> simp

/-! ## The sums over the pairs, the smooth disjunction, the normalization -/

theorem logProd_apply (n : Fin 262144) (k : Fin 19) :
    val_main_v59 (F := Ideal) x0 x1 x2 x3 (ix2 n k)
      = logProd (mat (val_main_v16 (F := Ideal) x2)) (mat (val_main_v35 (F := Ideal) x3)) (rowAt x0 n) (rowAt x1 n) k := by
  rw [val_main_v59_apply]
  refine Finset.sum_congr rfl fun c _ => ?_
  have el : lidx_main_v59 (ix2 n k) c = ix2 n c := funext fun a => Fin.ext (by match a with | ⟨0, _⟩ => rfl | ⟨1, _⟩ => rfl)
  have er : ridx_main_v59 (ix2 n k) c = ix2 c k := funext fun a => Fin.ext (by match a with | ⟨0, _⟩ => rfl | ⟨1, _⟩ => rfl)
  rw [el, er, cell_apply, onehot_apply]
  exact mul_comm _ _

theorem smoothOr_apply (n : Fin 262144) (k : Fin 19) :
    val_main_v62 (F := Ideal) x0 x1 x2 x3 (ix2 n k)
      = smoothOr (mat (val_main_v16 (F := Ideal) x2)) (mat (val_main_v35 (F := Ideal) x3)) (rowAt x0 n) (rowAt x1 n) k := by
  rw [val_main_v62_apply, val_main_v60_apply, logProd_apply, val_main_v61_apply, val_main_cst_13_apply]
  rfl

theorem out_apply (n : Fin 262144) (k : Fin 19) :
    val_main_v68 (F := Ideal) x0 x1 x2 x3 (ix2 n k)
      = outAt (val_main_v16 (F := Ideal) x2) (val_main_v35 (F := Ideal) x3) x0 x1 n k := by
  rw [val_main_v68_apply, val_main_v67_apply, val_main_v66_apply, val_main_v64_apply, val_main_v63_apply, val_main_v65_apply,
    val_main_cst_15_apply, val_main_cst_14_apply, smoothOr_apply]
  have es : ∀ k' : Fin 19, idx_main_v63 (idx_main_v64 (idx_main_v67 (ix2 n k))) k' = ix2 n k' := fun k' =>
    funext fun a => Fin.ext (by match a with | ⟨0, _⟩ => rfl | ⟨1, _⟩ => rfl)
  simp only [es, smoothOr_apply]
  show Ideal.div _ (Ideal.ofBits .f32 0x00000000#32 + _ + _) = _
  rw [Ideal.ofBits_zero_f32, zero_add]
  rfl

/-- The reference's result array is the batch-major specification. -/
theorem result_eq :
    val_main_v68 (F := Ideal) x0 x1 x2 x3 = result (val_main_v16 (F := Ideal) x2) (val_main_v35 (F := Ideal) x3) x0 x1 := by
  funext i
  obtain ⟨n, k, rfl⟩ : ∃ (n : Fin 262144) (k : Fin 19), i = ix2 n k := ⟨i 0, i 1, eq_ix2 i⟩
  exact out_apply x0 x1 x2 x3 n k

end Cert.RefRow

end
-- ==== Proof.lean ====
/-
  Kernel against reference for a graded-AND / soft-OR layer over a batch of 262144 rows.

  Both programs first turn each 10 × 10 weight array into a mixing matrix (subtract the row minimum, divide by the
  row range plus a constant, divide by the row sum plus a constant) and mix each batch row of the two inputs,
  `u i = Σ_k P1 (i, k) · a k` and `v j = Σ_k P2 (j, k) · b k`. With `L x = log (1 - clamp x + ε)`:

  * the reference forms, for the 100 pairs `(i, j)`, `L (min (u i) (v j))`, sums the pairs with `i + j = k` by a
    product with a one-hot table, takes `y k = 1 - exp (·)` and divides by `Σ_k' y k' + δ`;
  * the kernel, with the batch on the lanes and 8192 rows per grid point, takes `L (u i)` and `L (v j)` first,
    copies them to the 100 pairs by products with two 0/1 selector tables, takes the maximum of each pair, sums the
    anti-diagonals by a product with a third 0/1 table, and normalizes the same way; the program then transposes.

  On the extended reals the two agree because `L` reverses the order — clamping is monotone, the complement
  reverses, the logarithm is monotone — so `L (min x y) = max (L x) (L y)`; a product with a 0/1 selector picks one
  term exactly (zero times anything is zero); products and sums commute. No entry needs to be finite: the clamp
  bounds every argument of the logarithm, so the precondition is not used for the values.

  The frames of the two kernel programs are the generated ones; the reference's frame is its generated run; the
  idealization rewrote nothing, so its conjunct is trivial.
-/
import proofs.«136630_j52192442581023_2_alg».proof.Defs
import proofs.«136630_j52192442581023_2_alg».proof.Proof.Gen.Kernel
import proofs.«136630_j52192442581023_2_alg».proof.Proof.Gen.Kernel.Skeleton
import proofs.«136630_j52192442581023_2_alg».proof.Proof.Gen.Kernel.Launch
import proofs.«136630_j52192442581023_2_alg».proof.Proof.Gen.Kernel.Points
import proofs.«136630_j52192442581023_2_alg».proof.Proof.Gen.Kernel.Frame
import proofs.«136630_j52192442581023_2_alg».proof.Proof.Gen.KernelIdeal
import proofs.«136630_j52192442581023_2_alg».proof.Proof.Gen.KernelIdeal.Skeleton
import proofs.«136630_j52192442581023_2_alg».proof.Proof.Gen.KernelIdeal.Launch
import proofs.«136630_j52192442581023_2_alg».proof.Proof.Gen.KernelIdeal.Points
import proofs.«136630_j52192442581023_2_alg».proof.Proof.Gen.KernelIdeal.Frame
import proofs.«136630_j52192442581023_2_alg».proof.Proof.Gen.ReferenceIdeal
import proofs.«136630_j52192442581023_2_alg».proof.Proof.Gen.Pre_finite_inputs
import proofs.«136630_j52192442581023_2_alg».proof.Proof.Gen.ReferenceIdeal.Run
import proofs.«136630_j52192442581023_2_alg».proof.Proof.Gen.ReferenceIdeal.Read
import proofs.«136630_j52192442581023_2_alg».proof.Proof.KernelRun
import proofs.«136630_j52192442581023_2_alg».proof.Proof.RefRow
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program ends at the batch-major specification of its arguments, the reference at its own result
    term, which read entry by entry is the same specification of arguments that agree. -/
theorem algebraic : Cert.algebraic_KernelIdeal_ReferenceIdeal := by
  intro m ρ m' ρ' _ hagree
  refine ⟨fun c => Cert.KernelRun.spec m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq, Cert.RefRow.result_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
